-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S64x128 : Shape := ⟨2, ![64, 128]⟩
abbrev S64 : Shape := ⟨1, ![64]⟩
abbrev S64x144 : Shape := ⟨2, ![64, 144]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x144 : S_.BroadcastsInDim S64x144 (![] : Fin 0 → Fin S64x144.rank)
  reducesTo_S64x144_S_d0_1 : S64x144.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_v28 : IVec S_ 1) (main_v33 : IVec S2x800000 1) : IVec S_ 1 :=
  let main_c_12 : IVec S_ 1 := constantI S_ 1 1#1
  let main_v34 : IVec S_ 1 := (fun x v => Host.reduce IntOp.andi x v reducesTo_S2x800000_S_d0_1 h_S_) main_v33 main_c_12
  let main_v35 : IVec S_ 1 := andi main_v28 main_v34
  main_v35

def fn_part1 {F : FTy → Type} [FloatOps F] (main_arg1 : IVec S2x800000 32) (main_arg5 : FVec F S64x144 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x144 .f32 := Host.absf main_arg5
  let main_cst_6 : FVec F S_ .f32 := constant S_ .f32 0x7F800000#32
  let main_v20 : FVec F S64x144 .f32 := broadcastInDim S64x144 ![] bcast_S_S64x144 main_cst_6
  let main_v21 : IVec S64x144 1 := cmpf .olt main_v19 main_v20
  let main_c_7 : IVec S_ 1 := constantI S_ 1 1#1
  let main_v22 : IVec S_ 1 := (fun x v => Host.reduce IntOp.andi x v reducesTo_S64x144_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S2x800000 32 := broadcastInDim S2x800000 ![] bcast_S_S2x800000 main_c_10
  let main_v30 : IVec S2x800000 1 := cmpi .sge main_arg1 main_v29
  let main_c_11 : IVec S_ 32 := constantI S_ 32 50000#32
  let main_v31 : IVec S2x800000 32 := broadcastInDim S2x800000 ![] bcast_S_S2x800000 main_c_11
  let main_v32 : IVec S2x800000 1 := cmpi .slt main_arg1 main_v31
  let main_v33 : IVec S2x800000 1 := andi main_v30 main_v32
  fn_part2 (F := F) main_v28 main_v33

def fn {F : FTy → Type} [FloatOps F] (main_arg0 : FVec F S50000x128 .f32) (main_arg1 : IVec S2x800000 32) (main_arg2 : FVec F S800000x16 .f32) (main_arg3 : FVec F S64x128 .f32) (main_arg4 : FVec F S64 .f32) (main_arg5 : FVec F S64x144 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S64x128 : Shape := ⟨2, ![64, 128]⟩
abbrev S64 : Shape := ⟨1, ![64]⟩
abbrev S64x144 : Shape := ⟨2, ![64, 144]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S64x64 : Shape := ⟨2, ![64, 64]⟩
abbrev S64x16 : Shape := ⟨2, ![64, 16]⟩
abbrev S3200x64 : Shape := ⟨2, ![3200, 64]⟩
abbrev S3200x16 : Shape := ⟨2, ![3200, 16]⟩
abbrev S16x64 : Shape := ⟨2, ![16, 64]⟩

abbrev nBuf : Space → Nat
  | .hbm => 68
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S64x128, .f32⟩
  | .hbm, ⟨4, _⟩ => ⟨S64, .f32⟩
  | .hbm, ⟨5, _⟩ => ⟨S64x144, .f32⟩
  | .hbm, ⟨6, _⟩ => ⟨S64, .f32⟩
  | .hbm, ⟨7, _⟩ => ⟨S1x64, .f32⟩
  | .hbm, ⟨8, _⟩ => ⟨S50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x64, .f32⟩
  | .hbm, ⟨32, _⟩ => ⟨S800000x64, .i1⟩
  | .hbm, ⟨33, _⟩ => ⟨S_, .f32⟩
  | .hbm, ⟨34, _⟩ => ⟨S800000x64, .f32⟩
  | .hbm, ⟨35, _⟩ => ⟨S800000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S1, .i32⟩
  | .hbm, ⟨45, _⟩ => ⟨S_, .i32⟩
  | .hbm, ⟨46, _⟩ => ⟨S800000x1, .i32⟩
  | .hbm, ⟨47, _⟩ => ⟨S800000x1, .i1⟩
  | .hbm, ⟨48, _⟩ => ⟨S1x1, .i32⟩
  | .hbm, ⟨49, _⟩ => ⟨S800000x1, .i32⟩
  | .hbm, ⟨50, _⟩ => ⟨S800000x1, .i1⟩
  | .hbm, ⟨51, _⟩ => ⟨S800000x1, .i1⟩
  | .hbm, ⟨52, _⟩ => ⟨S_, .i1⟩
  | .hbm, ⟨53, _⟩ => ⟨S800000, .i1⟩
  | .hbm, ⟨54, _⟩ => ⟨S800000x64, .f32⟩
  | .hbm, ⟨55, _⟩ => ⟨S800000x64, .i1⟩
  | .hbm, ⟨56, _⟩ => ⟨S_, .f32⟩
  | .hbm, ⟨57, _⟩ => ⟨S800000x64, .f32⟩
  | .hbm, ⟨58, _⟩ => ⟨S800000x64, .f32⟩
  | .hbm, ⟨59, _⟩ => ⟨S64x64, .f32⟩
  | .hbm, ⟨60, _⟩ => ⟨S64x64, .f32⟩
  | .hbm, ⟨61, _⟩ => ⟨S64x16, .f32⟩
  | .hbm, ⟨62, _⟩ => ⟨S1x64, .f32⟩
  | .hbm, ⟨63, _⟩ => ⟨S800000x64, .f32⟩
  | .hbm, ⟨64, _⟩ => ⟨S_, .f32⟩
  | .hbm, ⟨65, _⟩ => ⟨S50000x64, .f32⟩
  | .hbm, ⟨66, _⟩ => ⟨S800000x1, .i32⟩
  | .hbm, ⟨67, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S3200x64, .f32⟩
  | .local _ .vmem, ⟨7, _⟩ => ⟨S3200x64, .f32⟩
  | .local _ .vmem, ⟨8, _⟩ => ⟨S3200x64, .f32⟩
  | .local _ .vmem, ⟨9, _⟩ => ⟨S3200x64, .f32⟩
  | .local _ .vmem, ⟨10, _⟩ => ⟨S3200x16, .f32⟩
  | .local _ .vmem, ⟨11, _⟩ => ⟨S3200x16, .f32⟩
  | .local _ .vmem, ⟨12, _⟩ => ⟨S64x64, .f32⟩
  | .local _ .vmem, ⟨13, _⟩ => ⟨S64x64, .f32⟩
  | .local _ .vmem, ⟨14, _⟩ => ⟨S64x16, .f32⟩
  | .local _ .vmem, ⟨15, _⟩ => ⟨S1x64, .f32⟩
  | .local _ .vmem, ⟨16, _⟩ => ⟨S3200x64, .f32⟩
  | .local _ .vmem, ⟨17, _⟩ => ⟨S3200x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_cst : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S3200x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S64x144_S64x64_0_0 : S64x144.Slices ![0, 0] S64x64
  slices_S64x144_S64x64_0_64 : S64x144.Slices ![0, 64] S64x64
  slices_S64x144_S64x16_0_128 : S64x144.Slices ![0, 128] S64x16
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S3200x16_S3200x16_0_0 : ∀ a, (![0, 0] : Fin 2 → Nat) a + S3200x16.size a ≤ S3200x16.size a
  h_S3200x16 : 0 < S3200x16.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  transposes_S64x64_p1_0_S64x64 : S64x64.Transposes [1, 0] S64x64
  transposes_S64x16_p1_0_S16x64 : S64x16.Transposes [1, 0] S16x64
  broadcasts_S1x64_S3200x64 : S1x64.Broadcasts S3200x64
  bcast_S_S50000x64 : S_.BroadcastsInDim S50000x64 (![] : Fin 0 → Fin S50000x64.rank)
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  dot_S3200x64_S64x64_S3200x64_1_0_0_1_n_n_wf : DotDims.WF S3200x64 S64x64 S3200x64 [1] [0] [0] [1] [] []
  dot_S3200x16_S16x64_S3200x64_1_0_0_1_n_n_wf : DotDims.WF S3200x16 S16x64 S3200x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x64.size a ≤ S800000x64.size a
  hwx1_0 : ∀ i : grid1.Coords, EltTy.bits .f32 = 32 ∨ (Rect.block (s := S800000x64) S3200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S800000x64.size a
  hwx1_1 : ∀ i : grid1.Coords, EltTy.bits .f32 = 32 ∨ (Rect.block (s := S800000x64) S3200x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x16.size a ≤ S800000x16.size a
  hwx1_2 : ∀ i : grid1.Coords, EltTy.bits .f32 = 32 ∨ (Rect.block (s := S800000x16) S3200x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x16.size a ≤ S64x16.size a
  hwx1_5 : ∀ i : grid1.Coords, EltTy.bits .f32 = 32 ∨ (Rect.block (s := S64x16) S64x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3200x64.size a ≤ S800000x64.size a
  hwx1_7 : ∀ i : grid1.Coords, EltTy.bits .f32 = 32 ∨ (Rect.block (s := S800000x64) S3200x64.size (cc1_transform_7 i) (hinb1_7 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x16_S16x64_S3200x64_1_0_0_1_n_n : DotDims S3200x16 S16x64 S3200x64 where
  lhsContracting := [1]
  rhsContracting := [0]
  lhsNonContracting := [0]
  rhsNonContracting := [1]
  lhsBatch := []
  rhsBatch := []
  wf := dot_S3200x16_S16x64_S3200x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S3200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S3200x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S64x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S3200x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S64x128 : Shape := ⟨2, ![64, 128]⟩
abbrev S64 : Shape := ⟨1, ![64]⟩
abbrev S64x144 : Shape := ⟨2, ![64, 144]⟩
abbrev S128x64 : Shape := ⟨2, ![128, 64]⟩
abbrev S50000x64 : Shape := ⟨2, ![50000, 64]⟩
abbrev S1x64 : Shape := ⟨2, ![1, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S144x64 : Shape := ⟨2, ![144, 64]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S64x128, .f32⟩
  | .hbm, ⟨4, _⟩ => ⟨S64, .f32⟩
  | .hbm, ⟨5, _⟩ => ⟨S64x144, .f32⟩
  | .hbm, ⟨6, _⟩ => ⟨S64, .f32⟩
  | .hbm, ⟨7, _⟩ => ⟨S128x64, .f32⟩
  | .hbm, ⟨8, _⟩ => ⟨S50000x64, .f32⟩
  | .hbm, ⟨9, _⟩ => ⟨S1x64, .f32⟩
  | .hbm, ⟨10, _⟩ => ⟨S50000x64, .f32⟩
  | .hbm, ⟨11, _⟩ => ⟨S50000x64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S800000x144, .f32⟩
  | .hbm, ⟨35, _⟩ => ⟨S144x64, .f32⟩
  | .hbm, ⟨36, _⟩ => ⟨S800000x64, .f32⟩
  | .hbm, ⟨37, _⟩ => ⟨S1x64, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S_, .f32⟩
  | .hbm, ⟨42, _⟩ => ⟨S800000x64, .f32⟩
  | .hbm, ⟨43, _⟩ => ⟨S800000x64, .i1⟩
  | .hbm, ⟨44, _⟩ => ⟨S_, .f32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S800000x64, .f32⟩
  | .hbm, ⟨49, _⟩ => ⟨S_, .f32⟩
  | .hbm, ⟨50, _⟩ => ⟨S50000x64, .f32⟩
  | .hbm, ⟨51, _⟩ => ⟨S800000x1, .i32⟩
  | .hbm, ⟨52, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  transposes_S64x144_S144x64_1_0 : S64x144.Transposes [1, 0] S144x64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  dot_S800000x144_S144x64_S800000x64_1_0_0_1_n_n_wf : DotDims.WF S800000x144 S144x64 S800000x64 [1] [0] [0] [1] [] []
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x64_S800000x64_1_0_0_1_n_n : DotDims S800000x144 S144x64 S800000x64 where
  lhsContracting := [1]
  rhsContracting := [0]
  lhsNonContracting := [0]
  rhsNonContracting := [1]
  lhsBatch := []
  rhsBatch := []
  wf := dot_S800000x144_S144x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The kernel program's run, keeping what the frame claim drops: when @main returns, EVERY unscoped buffer of a
  TensorCore holds the fold of @main's segments over the launch memory — the host stretches by their operations,
  each region by what its pipeline's write-backs leave in its arrays.  In particular the result buffer holds that
  fold's value at the result, and the seven argument arrays hold what they were launched with.
-/
import proofs.«122028_j56788057588255_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped buffer
    of each core holds the last boundary's contents `W8`: the launch over the program's eight segments, the last
    thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run read at the result buffer and the arguments: the result holds the last boundary's contents at it,
    each argument what it was launched with. -/
theorem run : θ_run defs (onTc (τ := τ) (main (F := F))) ⟨m, fun _ => 0, ρ⟩ (fun r => ∀ c : Dev nD,
      r.2.mem ((c.tc : Thread nD τ).loc main_v15) = W8 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v15 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)
    (run_all m ρ)

end Cert.KernelIdeal.KRun

end
-- ==== Proof.KHost.lean ====
/-
  The kernel program's host stretches as pure functions of the buffers they read.

  Between the two regions @main cuts the edge index into its two rows, gathers the node table's rows each of them
  names — a gather that keeps the gathered row where the (wrapped) index word lies in `[0, 49999]` and fills with a
  NaN word elsewhere — cuts the attention weights into three column bands and lays the bias out as one row; after the
  second region it scatter-adds the messages into a zero table.  Each lemma below reads ONE stretch at ONE buffer, from
  any contents `W` the stretch is entered with.
-/
import proofs.«122028_j56788057588255_1_alg».proof.Proof.Gen.KernelIdeal.Frame
import Idealize.ShloMosaic.Lib.StableHlo.Run

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]

/-! ## The stages -/

/-- Row `r` of the edge index as a vector of 800000 words. -/
def srcK (a1 : IVec S2x800000 32) : IVec S800000 32 :=
  shapeCast S800000 (extractStridedSlice S1x800000 ![0, 0] a1 slices_S2x800000_S1x800000_0_0) shapeCasts_S1x800000_S800000
def dstK (a1 : IVec S2x800000 32) : IVec S800000 32 :=
  shapeCast S800000 (extractStridedSlice S1x800000 ![1, 0] a1 slices_S2x800000_S1x800000_1_0) shapeCasts_S1x800000_S800000

/-- The start indices of the row gather: a negative word moved up by the table's 50000 rows, as one column. -/
def wrapK (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Per edge: does the start index lie in `[0, 49999]`? -/
def okK (i : IVec S800000x1 32) : IVec S800000 1 :=
  Host.reduce IntOp.andi
    (andi (cmpi .sge i (broadcastInDim S800000x1 ![] bcast_S_S800000x1 (constantI S_ 32 0#32)))
      (cmpi .sle i (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The gather with fill: the table's row at the start index where that index is in range, a NaN word elsewhere. -/
def takeK (h : FVec F S50000x64 .f32) (v : IVec S800000 32) : FVec F S800000x64 .f32 :=
  select (broadcastInDim S800000x64 ![0] bcast_S800000_S800000x64_0 (okK (wrapK v)))
    (Host.gather gather_S50000x64_S800000x1_S800000x64_1_0_n_n_0_1_164 h (wrapK v))
    (broadcastInDim S800000x64 ![] bcast_S_S800000x64 (constant S_ .f32 0x7FC00000#32))

/-- The scatter-add of the messages into a zero table at the rows the first index row names. -/
def outK (src : IVec S800000 32) (msg : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 src) msg

/-! ## Each stretch read at the buffers it writes -/

variable (W : Valuation τ sig (Elt F))

theorem after0_v0 : after (hostOps0 (F := F)) W (Proc.devRef .tc main_v0)
    = shapeCast S1x64 (W (Proc.devRef .tc main_arg4)) shapeCasts_S64_S1x64 := by
  after_results; rfl

theorem after1_v3 : after (hostOps1 (F := F)) W (Proc.devRef .tc main_v3) = srcK (W (Proc.devRef .tc main_arg1)) := by
  after_results; rfl

theorem after1_v5 : after (hostOps1 (F := F)) W (Proc.devRef .tc main_v5) = dstK (W (Proc.devRef .tc main_arg1)) := by
  after_results; rfl

attribute [local irreducible] Host.gather Host.reduce in
set_option maxHeartbeats 1000000 in
theorem after1_1_v6 : after (hostOps1_1 (F := F)) W (Proc.devRef .tc main_v6)
    = takeK (W (Proc.devRef .tc main_v1)) (W (Proc.devRef .tc main_v3)) := by
  after_results_simp; rfl

attribute [local irreducible] Host.gather Host.reduce in
set_option maxHeartbeats 1000000 in
theorem after1_2_v7 : after (hostOps1_2 (F := F)) W (Proc.devRef .tc main_v7)
    = takeK (W (Proc.devRef .tc main_v1)) (W (Proc.devRef .tc main_v5)) := by
  after_results_simp; rfl

theorem after1_3_v8 : after (hostOps1_3 (F := F)) W (Proc.devRef .tc main_v8)
    = extractStridedSlice S64x64 ![0, 0] (W (Proc.devRef .tc main_arg5)) slices_S64x144_S64x64_0_0 := by
  after_results
theorem after1_3_v9 : after (hostOps1_3 (F := F)) W (Proc.devRef .tc main_v9)
    = extractStridedSlice S64x64 ![0, 64] (W (Proc.devRef .tc main_arg5)) slices_S64x144_S64x64_0_64 := by
  after_results
theorem after1_3_v10 : after (hostOps1_3 (F := F)) W (Proc.devRef .tc main_v10)
    = extractStridedSlice S64x16 ![0, 128] (W (Proc.devRef .tc main_arg5)) slices_S64x144_S64x16_0_128 := by
  after_results
theorem after1_3_v11 : after (hostOps1_3 (F := F)) W (Proc.devRef .tc main_v11)
    = shapeCast S1x64 (W (Proc.devRef .tc main_arg6)) shapeCasts_S64_S1x64 := by
  after_results; rfl

theorem after2_v15 : after (hostOps2 (F := F)) W (Proc.devRef .tc main_v15)
    = outK (W (Proc.devRef .tc main_v3)) (W (Proc.devRef .tc main_v12)) := by
  after_results; rfl

end Cert.KernelIdeal.KHost

end
-- ==== Proof.KKeep.lean ====
/-
  Which buffers each host stretch of the kernel program writes, and that it leaves every other buffer as it found it.
-/
import proofs.«122028_j56788057588255_1_alg».proof.Proof.Gen.KernelIdeal.Launch
import Idealize.ShloMosaic.Lib.StableHlo.Run

noncomputable section

namespace Cert.KernelIdeal.KKeep

open Cert.KernelIdeal Cert.KernelIdeal.Gen
open Idealize.ShloMosaic Idealize.ShloMosaic.TcCoe Idealize.SL.Sem Idealize.ShloMosaic.StableHlo

variable {F : FTy → Type} [FloatOps F]

/-- The references `hostOps0`'s operations write. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [hostOps0, List.Forall]
  repeat' apply And.intro
  all_goals (simp only [nullary_writes, unary_writes, binary_writes, ternary_writes, quaternary_writes, reshape_writes, Finset.singleton_subset_iff, List.mem_toFinset]; exact List.mem_map_of_mem (by decide))
/-- `hostOps0` leaves every buffer it does not write. -/
theorem keep_hostOps0 (W : Valuation τ sig (Elt F)) (r : Ref sig .tc) (h : r ∉ hostOps0_W) :
    after (hostOps0 (F := F)) W (Proc.devRef .tc r) = W (Proc.devRef .tc r) :=
  after_of_writes_sub hostOps0 W hostOps0_writes h

/-- The references `hostOps1`'s operations write. -/
abbrev hostOps1_W : List (Ref sig .tc) := [main_v2, main_v3, main_v4, main_v5]
theorem hostOps1_writes : (hostOps1 : List (HloOp τ sig (Elt F))).Forall fun op => op.writes ⊆ (hostOps1_W.map (Proc.devRef (τ := τ) .tc)).toFinset := by
  simp only [hostOps1, List.Forall]
  repeat' apply And.intro
  all_goals (simp only [nullary_writes, unary_writes, binary_writes, ternary_writes, quaternary_writes, reshape_writes, Finset.singleton_subset_iff, List.mem_toFinset]; exact List.mem_map_of_mem (by decide))
/-- `hostOps1` leaves every buffer it does not write. -/
theorem keep_hostOps1 (W : Valuation τ sig (Elt F)) (r : Ref sig .tc) (h : r ∉ hostOps1_W) :
    after (hostOps1 (F := F)) W (Proc.devRef .tc r) = W (Proc.devRef .tc r) :=
  after_of_writes_sub hostOps1 W hostOps1_writes h

/-- The references `hostOps1_1`'s operations write. -/
abbrev hostOps1_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6]
theorem hostOps1_1_writes : (hostOps1_1 : List (HloOp τ sig (Elt F))).Forall fun op => op.writes ⊆ (hostOps1_1_W.map (Proc.devRef (τ := τ) .tc)).toFinset := by
  simp only [hostOps1_1, List.Forall]
  repeat' apply And.intro
  all_goals (simp only [nullary_writes, unary_writes, binary_writes, ternary_writes, quaternary_writes, reshape_writes, Finset.singleton_subset_iff, List.mem_toFinset]; exact List.mem_map_of_mem (by decide))
/-- `hostOps1_1` leaves every buffer it does not write. -/
theorem keep_hostOps1_1 (W : Valuation τ sig (Elt F)) (r : Ref sig .tc) (h : r ∉ hostOps1_1_W) :
    after (hostOps1_1 (F := F)) W (Proc.devRef .tc r) = W (Proc.devRef .tc r) :=
  after_of_writes_sub hostOps1_1 W hostOps1_1_writes h

/-- The references `hostOps1_2`'s operations write. -/
abbrev hostOps1_2_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]
theorem hostOps1_2_writes : (hostOps1_2 : List (HloOp τ sig (Elt F))).Forall fun op => op.writes ⊆ (hostOps1_2_W.map (Proc.devRef (τ := τ) .tc)).toFinset := by
  simp only [hostOps1_2, List.Forall]
  repeat' apply And.intro
  all_goals (simp only [nullary_writes, unary_writes, binary_writes, ternary_writes, quaternary_writes, reshape_writes, Finset.singleton_subset_iff, List.mem_toFinset]; exact List.mem_map_of_mem (by decide))
/-- `hostOps1_2` leaves every buffer it does not write. -/
theorem keep_hostOps1_2 (W : Valuation τ sig (Elt F)) (r : Ref sig .tc) (h : r ∉ hostOps1_2_W) :
    after (hostOps1_2 (F := F)) W (Proc.devRef .tc r) = W (Proc.devRef .tc r) :=
  after_of_writes_sub hostOps1_2 W hostOps1_2_writes h

/-- The references `hostOps1_3`'s operations write. -/
abbrev hostOps1_3_W : List (Ref sig .tc) := [main_v8, main_v9, main_v10, main_v11]
theorem hostOps1_3_writes : (hostOps1_3 : List (HloOp τ sig (Elt F))).Forall fun op => op.writes ⊆ (hostOps1_3_W.map (Proc.devRef (τ := τ) .tc)).toFinset := by
  simp only [hostOps1_3, List.Forall]
  repeat' apply And.intro
  all_goals (simp only [nullary_writes, unary_writes, binary_writes, ternary_writes, quaternary_writes, reshape_writes, Finset.singleton_subset_iff, List.mem_toFinset]; exact List.mem_map_of_mem (by decide))
/-- `hostOps1_3` leaves every buffer it does not write. -/
theorem keep_hostOps1_3 (W : Valuation τ sig (Elt F)) (r : Ref sig .tc) (h : r ∉ hostOps1_3_W) :
    after (hostOps1_3 (F := F)) W (Proc.devRef .tc r) = W (Proc.devRef .tc r) :=
  after_of_writes_sub hostOps1_3 W hostOps1_3_writes h

/-- The references `hostOps2`'s operations write. -/
abbrev hostOps2_W : List (Ref sig .tc) := [main_cst, main_v13, main_v14, main_v15]
theorem hostOps2_writes : (hostOps2 : List (HloOp τ sig (Elt F))).Forall fun op => op.writes ⊆ (hostOps2_W.map (Proc.devRef (τ := τ) .tc)).toFinset := by
  simp only [hostOps2, List.Forall]
  repeat' apply And.intro
  all_goals (simp only [nullary_writes, unary_writes, binary_writes, ternary_writes, quaternary_writes, reshape_writes, Finset.singleton_subset_iff, List.mem_toFinset]; exact List.mem_map_of_mem (by decide))
/-- `hostOps2` leaves every buffer it does not write. -/
theorem keep_hostOps2 (W : Valuation τ sig (Elt F)) (r : Ref sig .tc) (h : r ∉ hostOps2_W) :
    after (hostOps2 (F := F)) W (Proc.devRef .tc r) = W (Proc.devRef .tc r) :=
  after_of_writes_sub hostOps2 W hostOps2_writes h

end Cert.KernelIdeal.KKeep

end
-- ==== Proof.Spec.lean ====
/-
  The mathematics both programs compute, as functions of the argument arrays over the extended reals.

  A node table `h` of 50000 rows and 64 columns is the affine image of the node features:
  `h[n, c] = (∑ k < 128, x[n, k] · W[c, k]) + b[c]`.  Every edge `e` names two rows of that table by the two
  entries `idx[0, e]` (the row it is accumulated into) and `idx[1, e]` (its neighbour's row).  Its message is the
  neighbour's row scaled, column by column, by a gate: the leaky rectifier (slope the f32 literal nearest 0.2) of
  an affine form of the two rows and the edge's 16 attributes, whose 144 weights per column are the three
  consecutive column bands `[0, 64)`, `[64, 128)`, `[128, 144)` of `A`.  The result accumulates the messages into
  the rows the first entries name; that last step is the same operation of the same operands in both programs and is
  not restated here.
-/
import Idealize.ShloMosaic.PureOps.Ideal
import Idealize.ShloMosaic.Lib.ValueIdx

noncomputable section

namespace Cert.Spec

open Idealize.ShloMosaic Idealize.ShloMosaic.ValueIdx

/-- The table row an index word names: its value as a natural number, reduced below the table's 50000 rows. On
    the words the precondition admits (`0 ≤ v < 50000` as signed integers) the reduction changes nothing. -/
def row (v : BitVec 32) : Fin 50000 := ⟨v.toNat % 50000, Nat.mod_lt _ (by decide)⟩

/-- The leaky rectifier: `x` where `x ≥ 0`, else the slope literal times `x`. -/
def lrelu (x : EReal) : EReal :=
  Scalar.select (Ideal.cmp .oge x (Ideal.ofBits .f32 0x00000000#32)) x (Ideal.ofBits .f32 0x3E4CCCCD#32 * x)

/-- The node table: `h[n, c] = (∑ k, x[n, k] · W[c, k]) + b[c]`. -/
def table (x : (⟨2, ![50000, 128]⟩ : Shape).Idx → EReal) (W : (⟨2, ![64, 128]⟩ : Shape).Idx → EReal)
    (b : (⟨1, ![64]⟩ : Shape).Idx → EReal) : (⟨2, ![50000, 64]⟩ : Shape).Idx → EReal :=
  fun i => (∑ k : Fin 128, x (ix2 (i 0) k) * W (ix2 (i 1) k)) + b (ix1 (i 1))

/-- The gate's affine form at edge `e`, column `c`, from the two table rows `p` (accumulated into) and `q` (the
    neighbour): three partial sums over the three column bands of `A`, added left to right, then the bias. -/
def logit (h : (⟨2, ![50000, 64]⟩ : Shape).Idx → EReal) (ea : (⟨2, ![800000, 16]⟩ : Shape).Idx → EReal)
    (A : (⟨2, ![64, 144]⟩ : Shape).Idx → EReal) (ab : (⟨1, ![64]⟩ : Shape).Idx → EReal)
    (p q : Fin 50000) (e : Fin 800000) (c : Fin 64) : EReal :=
  (((∑ k : Fin 64, h (ix2 p k) * A (ix2 c (⟨k.val, by omega⟩ : Fin 144)))
      + (∑ k : Fin 64, h (ix2 q k) * A (ix2 c (⟨64 + k.val, by omega⟩ : Fin 144))))
      + (∑ k : Fin 16, ea (ix2 e k) * A (ix2 c (⟨128 + k.val, by omega⟩ : Fin 144))))
    + ab (ix1 c)

/-- The messages: `msg[e, c] = h[q, c] · lrelu (logit …)` with `p`, `q` the rows `idx[0, e]`, `idx[1, e]` name. -/
def msg (h : (⟨2, ![50000, 64]⟩ : Shape).Idx → EReal) (idx : (⟨2, ![2, 800000]⟩ : Shape).Idx → BitVec 32)
    (ea : (⟨2, ![800000, 16]⟩ : Shape).Idx → EReal) (A : (⟨2, ![64, 144]⟩ : Shape).Idx → EReal)
    (ab : (⟨1, ![64]⟩ : Shape).Idx → EReal) : (⟨2, ![800000, 64]⟩ : Shape).Idx → EReal :=
  fun j =>
    h (ix2 (row (idx (ix2 (1 : Fin 2) (j 0)))) (j 1))
      * lrelu (logit h ea A ab (row (idx (ix2 (0 : Fin 2) (j 0)))) (row (idx (ix2 (1 : Fin 2) (j 0)))) (j 0) (j 1))

/-- The node table as the first kernel region sees its operands: the bias as a one-row matrix. -/
def tableK (x : (⟨2, ![50000, 128]⟩ : Shape).Idx → EReal) (W : (⟨2, ![64, 128]⟩ : Shape).Idx → EReal)
    (b2 : (⟨2, ![1, 64]⟩ : Shape).Idx → EReal) : (⟨2, ![50000, 64]⟩ : Shape).Idx → EReal :=
  fun i => (∑ k : Fin 128, x (ix2 (i 0) k) * W (ix2 (i 1) k)) + b2 (ix2 (0 : Fin 1) (i 1))

/-- The messages as the second kernel region sees its operands: the two gathered row arrays `hi`, `hj` (one row per
    edge), the edge attributes, the three column bands of the weights as separate matrices, the bias as a one-row
    matrix. -/
def msgK (hi hj : (⟨2, ![800000, 64]⟩ : Shape).Idx → EReal) (ea : (⟨2, ![800000, 16]⟩ : Shape).Idx → EReal)
    (Wi Wj : (⟨2, ![64, 64]⟩ : Shape).Idx → EReal) (We : (⟨2, ![64, 16]⟩ : Shape).Idx → EReal)
    (b2 : (⟨2, ![1, 64]⟩ : Shape).Idx → EReal) : (⟨2, ![800000, 64]⟩ : Shape).Idx → EReal :=
  fun j =>
    hj (ix2 (j 0) (j 1))
      * lrelu ((((∑ k : Fin 64, hi (ix2 (j 0) k) * Wi (ix2 (j 1) k))
          + (∑ k : Fin 64, hj (ix2 (j 0) k) * Wj (ix2 (j 1) k)))
          + (∑ k : Fin 16, ea (ix2 (j 0) k) * We (ix2 (j 1) k)))
        + b2 (ix2 (0 : Fin 1) (j 1)))

/-- The index words all name rows of the table: as signed integers they lie in `[0, 50000)`. -/
def InRange (idx : (⟨2, ![2, 800000]⟩ : Shape).Idx → BitVec 32) : Prop :=
  ∀ i, 0 ≤ (idx i).toInt ∧ (idx i).toInt < 50000

end Cert.Spec

end
-- ==== Proof.KChain.lean ====
/-
  The kernel program's result as ONE function of its argument arrays.

  When @main returns, its result buffer holds the fold of the program's eight segments over the launch memory.  Read
  from the result backwards: the scatter-add of the second region's output array at the rows the index's first row
  names; that array is the messages of the region's seven input arrays (taken here as the hypothesis `H1`, the region's
  value); those inputs are the two row gathers of the first region's output array, the edge attributes, the three column
  bands of the attention weights and its bias as one row; and the first region's output array is the node table of the
  node features, the projection weights and the projection bias as one row (hypothesis `H0`).  No host stretch and no
  region writes an argument array, so every read of one walks back to the launch memory.
-/
import proofs.«122028_j56788057588255_1_alg».proof.Proof.Gen.KernelIdeal.Frame
import proofs.«122028_j56788057588255_1_alg».proof.Proof.KHost
import proofs.«122028_j56788057588255_1_alg».proof.Proof.KKeep
import proofs.«122028_j56788057588255_1_alg».proof.Proof.Spec

set_option maxRecDepth 16384

noncomputable section

namespace Cert.KernelIdeal.KChain

open Cert.KernelIdeal Cert.KernelIdeal.Gen Cert.KernelIdeal.KHost Cert.KernelIdeal.KKeep
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## From one boundary to the next, at a buffer the segment between does not write -/

theorem W1_of (r : Ref sig .tc) (h : r ∉ (hostOps0_W : List (Ref sig .tc))) :
    W1 m ρ c (Proc.devRef .tc r) = m ((c : Thread nD τ).loc r) :=
  keep_hostOps0 (W0 m ρ c) r h
theorem W3_of (r : Ref sig .tc) (h : r ∉ (hostOps1_W : List (Ref sig .tc))) :
    W3 m ρ c (Proc.devRef .tc r) = W2 m ρ c (Proc.devRef .tc r) := keep_hostOps1 (W2 m ρ c) r h
theorem W4_of (r : Ref sig .tc) (h : r ∉ (hostOps1_1_W : List (Ref sig .tc))) :
    W4 m ρ c (Proc.devRef .tc r) = W3 m ρ c (Proc.devRef .tc r) := keep_hostOps1_1 (W3 m ρ c) r h
theorem W5_of (r : Ref sig .tc) (h : r ∉ (hostOps1_2_W : List (Ref sig .tc))) :
    W5 m ρ c (Proc.devRef .tc r) = W4 m ρ c (Proc.devRef .tc r) := keep_hostOps1_2 (W4 m ρ c) r h
theorem W6_of (r : Ref sig .tc) (h : r ∉ (hostOps1_3_W : List (Ref sig .tc))) :
    W6 m ρ c (Proc.devRef .tc r) = W5 m ρ c (Proc.devRef .tc r) := keep_hostOps1_3 (W5 m ρ c) r h

/-! ## The arguments the second region and the host stretches read, at the boundaries they are read at -/

/-- An argument that is no window of the first region, after that region: as launched. -/
theorem W2_arg (r : Ref sig .tc) (h0 : r ∉ (hostOps0_W : List (Ref sig .tc))) (h1 : ∀ w, Pipeline.arrRef spec0 w ≠ r) :
    W2 m ρ c (Proc.devRef .tc r) = m ((c : Thread nD τ).loc r) :=
  (W2_of_ne m ρ c r h1).trans (W1_of m ρ c r h0)

theorem W2_arg1 : W2 m ρ c (Proc.devRef .tc main_arg1) = m ((c : Thread nD τ).loc main_arg1) := W2_arg m ρ c _ (by decide) (by decide)
theorem W2_arg2 : W2 m ρ c (Proc.devRef .tc main_arg2) = m ((c : Thread nD τ).loc main_arg2) := W2_arg m ρ c _ (by decide) (by decide)
theorem W2_arg5 : W2 m ρ c (Proc.devRef .tc main_arg5) = m ((c : Thread nD τ).loc main_arg5) := W2_arg m ρ c _ (by decide) (by decide)
theorem W2_arg6 : W2 m ρ c (Proc.devRef .tc main_arg6) = m ((c : Thread nD τ).loc main_arg6) := W2_arg m ρ c _ (by decide) (by decide)

theorem W5_arg5 : W5 m ρ c (Proc.devRef .tc main_arg5) = m ((c : Thread nD τ).loc main_arg5) :=
  (W5_of m ρ c _ (by decide)).trans ((W4_of m ρ c _ (by decide)).trans ((W3_of m ρ c _ (by decide)).trans (W2_arg5 m ρ c)))
theorem W5_arg6 : W5 m ρ c (Proc.devRef .tc main_arg6) = m ((c : Thread nD τ).loc main_arg6) :=
  (W5_of m ρ c _ (by decide)).trans ((W4_of m ρ c _ (by decide)).trans ((W3_of m ρ c _ (by decide)).trans (W2_arg6 m ρ c)))
theorem W6_arg2 : W6 m ρ c (Proc.devRef .tc main_arg2) = m ((c : Thread nD τ).loc main_arg2) :=
  (W6_of m ρ c _ (by decide)).trans ((W5_of m ρ c _ (by decide)).trans ((W4_of m ρ c _ (by decide)).trans
    ((W3_of m ρ c _ (by decide)).trans (W2_arg2 m ρ c))))

/-! ## The index rows -/

theorem W3_v3 : W3 m ρ c (Proc.devRef .tc main_v3) = srcK (m ((c : Thread nD τ).loc main_arg1)) :=
  (after1_v3 (W2 m ρ c)).trans (congrArg srcK (W2_arg1 m ρ c))
theorem W3_v5 : W3 m ρ c (Proc.devRef .tc main_v5) = dstK (m ((c : Thread nD τ).loc main_arg1)) :=
  (after1_v5 (W2 m ρ c)).trans (congrArg dstK (W2_arg1 m ρ c))
theorem W7_v3 : W7 m ρ c (Proc.devRef .tc main_v3) = srcK (m ((c : Thread nD τ).loc main_arg1)) :=
  (W7_of_ne m ρ c main_v3 (by decide)).trans ((W6_of m ρ c _ (by decide)).trans ((W5_of m ρ c _ (by decide)).trans
    ((W4_of m ρ c _ (by decide)).trans (W3_v3 m ρ c))))

/-! ## The first region's operands and output -/

theorem V1_arg0 : V1 m ρ c main_arg0 = m ((c : Thread nD τ).loc main_arg0) := W1_of m ρ c _ (by decide)
theorem V1_arg3 : V1 m ρ c main_arg3 = m ((c : Thread nD τ).loc main_arg3) := W1_of m ρ c _ (by decide)
theorem V1_v0 : V1 m ρ c main_v0 = shapeCast S1x64 (m ((c : Thread nD τ).loc main_arg4)) shapeCasts_S64_S1x64 :=
  after0_v0 (W0 m ρ c)

/-- The node table as the gathers find it: the first region's output array. -/
theorem W3_v1 : W3 m ρ c (Proc.devRef .tc main_v1) = (dat0 (V1 m ρ) c).arrAt 3 cfg0.N :=
  (W3_of m ρ c _ (by decide)).trans (W2_arr m ρ c 3)
theorem W4_v1 : W4 m ρ c (Proc.devRef .tc main_v1) = (dat0 (V1 m ρ) c).arrAt 3 cfg0.N :=
  (W4_of m ρ c _ (by decide)).trans (W3_v1 m ρ c)
theorem W4_v5 : W4 m ρ c (Proc.devRef .tc main_v5) = dstK (m ((c : Thread nD τ).loc main_arg1)) :=
  (W4_of m ρ c _ (by decide)).trans (W3_v5 m ρ c)

/-! ## The second region's operands -/

theorem V6_v6 : V6 m ρ c main_v6
    = takeK (F := Ideal) ((dat0 (V1 m ρ) c).arrAt 3 cfg0.N) (srcK (m ((c : Thread nD τ).loc main_arg1))) :=
  (W6_of m ρ c _ (by decide)).trans ((W5_of m ρ c _ (by decide)).trans
    ((after1_1_v6 (W3 m ρ c)).trans (by rw [W3_v1, W3_v3])))
theorem V6_v7 : V6 m ρ c main_v7
    = takeK (F := Ideal) ((dat0 (V1 m ρ) c).arrAt 3 cfg0.N) (dstK (m ((c : Thread nD τ).loc main_arg1))) :=
  (W6_of m ρ c _ (by decide)).trans ((after1_2_v7 (W4 m ρ c)).trans (by rw [W4_v1, W4_v5]))
theorem V6_arg2 : V6 m ρ c main_arg2 = m ((c : Thread nD τ).loc main_arg2) := W6_arg2 m ρ c
theorem V6_v8 : V6 m ρ c main_v8
    = extractStridedSlice S64x64 ![0, 0] (m ((c : Thread nD τ).loc main_arg5)) slices_S64x144_S64x64_0_0 :=
  (after1_3_v8 (W5 m ρ c)).trans (by rw [W5_arg5])
theorem V6_v9 : V6 m ρ c main_v9
    = extractStridedSlice S64x64 ![0, 64] (m ((c : Thread nD τ).loc main_arg5)) slices_S64x144_S64x64_0_64 :=
  (after1_3_v9 (W5 m ρ c)).trans (by rw [W5_arg5])
theorem V6_v10 : V6 m ρ c main_v10
    = extractStridedSlice S64x16 ![0, 128] (m ((c : Thread nD τ).loc main_arg5)) slices_S64x144_S64x16_0_128 :=
  (after1_3_v10 (W5 m ρ c)).trans (by rw [W5_arg5])
theorem V6_v11 : V6 m ρ c main_v11 = shapeCast S1x64 (m ((c : Thread nD τ).loc main_arg6)) shapeCasts_S64_S1x64 :=
  (after1_3_v11 (W5 m ρ c)).trans (by rw [W5_arg6])

/-! ## The result -/

/-- The result buffer at the return: the scatter-add, at the index's first row, of the second region's output array. -/
theorem W8_v15 : W8 m ρ c (Proc.devRef .tc main_v15)
    = outK (F := Ideal) (srcK (m ((c : Thread nD τ).loc main_arg1))) ((dat1 (V6 m ρ) c).arrAt 7 cfg1.N) :=
  (after2_v15 (W7 m ρ c)).trans (by rw [W7_v3, W7_arr m ρ c 7])

end Cert.KernelIdeal.KChain

end
-- ==== Proof.KReg0.lean ====
/-
  The first kernel region computes the node table.

  The region walks the 50000 rows of the feature array in ten consecutive blocks of 5000 rows. At each block it
  multiplies the block's rows (128 features each) by the transposed 64 x 128 weight matrix and adds the one-row bias
  to every row; the weights and the bias are the same at every block. The change of float format in front of the
  product is the identity on extended reals, and the product accumulates into zero, so entry (p, q) of what a block
  stores is

      (sum over k < 128 of x[p, k] * W[q, k]) + b[0, q]

  with x the block's rows. Block t sits at rows 5000 t ... 5000 t + 4999 of both the feature array and the result,
  so every stored block is the matching row range of one function of the whole arrays, `Cert.Spec.tableK`; the ten
  blocks cover every row (row r lies in block r / 5000); hence the result array is that function.
-/
import proofs.«122028_j56788057588255_1_alg».proof.Proof.Gen.KernelIdeal.Frame
import proofs.«122028_j56788057588255_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KReg0

open Cert.KernelIdeal Cert.KernelIdeal.Gen
open Idealize.ShloMosaic Idealize.ShloMosaic.ValueIdx Idealize.ShloMosaic.TcCoe Idealize.SL.Sem
open Idealize.ShloMosaic.Pipeline (Dat)

/-! ## The product's operand indices

The product contracts axis 1 of the [5000, 128] rows with axis 0 of the [128, 64] transposed weights. At result
entry (p, q) and contraction position k the left operand is read at (p, k) and the right one at (k, q). -/

/-- The dimension numbers of the block's matrix product. -/
abbrev dotXW : DotDims S5000x128 S128x64 S5000x64 := dot_S5000x128_S128x64_S5000x64_1_0_0_1_n_n

/-- The left operand's row is the result's row. -/
theorem dot_lhs_row (p : Fin 5000) (q : Fin 64) (k : dotXW.contr.Idx) :
    (dotXW.lhsIdx (ix2 p q) k 0).val = p.val := by
  simp [DotDims.lhsIdx, dotXW, dot_S5000x128_S128x64_S5000x64_1_0_0_1_n_n]; rfl

/-- The right operand's column is the result's column. -/
theorem dot_rhs_col (p : Fin 5000) (q : Fin 64) (k : dotXW.contr.Idx) :
    (dotXW.rhsIdx (ix2 p q) k 1).val = q.val := by
  simp [DotDims.rhsIdx, dotXW, dot_S5000x128_S128x64_S5000x64_1_0_0_1_n_n]; rfl

/-- The left operand index at contraction position `k` is `(p, k)`. -/
theorem dot_lhs_at (p : Fin 5000) (q : Fin 64) (k : Fin 128) :
    dotXW.lhsIdx (ix2 p q) ((contrEquiv1 dotXW 128 rfl rfl).symm k) = ix2 p k := by
  funext a; apply Fin.ext
  match a with
  | ⟨0, _⟩ => exact dot_lhs_row p q _
  | ⟨1, _⟩ =>
    exact (dotXW.lhsIdx_val_of_single (cl := 1) rfl _ _).trans (contrEquiv1_symm_val dotXW 128 rfl rfl k)

/-- The right operand index at contraction position `k` is `(k, q)`. -/
theorem dot_rhs_at (p : Fin 5000) (q : Fin 64) (k : Fin 128) :
    dotXW.rhsIdx (ix2 p q) ((contrEquiv1 dotXW 128 rfl rfl).symm k) = ix2 k q := by
  funext a; apply Fin.ext
  match a with
  | ⟨0, _⟩ =>
    exact (dotXW.rhsIdx_val_of_single (cr := 0) rfl _ _).trans (contrEquiv1_symm_val dotXW 128 rfl rfl k)
  | ⟨1, _⟩ => exact dot_rhs_col p q _

/-! ## One block's arithmetic at an entry -/

/-- The transposed weights at `(k, q)` are the weights at `(q, k)`; the change of format in front is the identity. -/
theorem weightT_at (w : Vec Ideal S64x128 .f32) (k : Fin 128) (q : Fin 64) :
    transpose S128x64 [1, 0] (truncf .bf16 w bitsLt_bf16_f32 : FVec Ideal S64x128 .bf16)
        transposes_S64x128_p1_0_S128x64 (ix2 k q)
      = w (ix2 q k) := by
  refine (transpose_apply [1, 0] _ transposes_S64x128_p1_0_S128x64 (ix2 k q) (ix2 q k) fun b => ?_).trans rfl
  match b with
  | ⟨0, _⟩ => rfl
  | ⟨1, _⟩ => rfl

/-- Entry `(p, q)` of what the body computes from a block `x` of rows, the weights `w` and the one-row bias `b`:
    the sum over the 128 features of `x[p, k] * w[q, k]`, plus `b[0, q]`. The contraction's index set is identified
    with `Fin 128`, the zero accumulator drops out, the bias row is read at every row. -/
theorem affine_at (x : Vec Ideal S5000x128 .f32) (w : Vec Ideal S64x128 .f32) (b : Vec Ideal S1x64 .f32)
    (p : Fin 5000) (q : Fin 64) :
    k0_pay1 (F := Ideal) x w b (ix2 p q)
      = (∑ k : Fin 128, x (ix2 p k) * w (ix2 q k)) + b (ix2 (0 : Fin 1) q) := by
  unfold k0_pay1
  dsimp only
  refine (addf_apply _ _ _).trans ?_
  refine congrArg₂ (· + ·) ?_ ?_
  · refine (Ideal.matmul_constant_zero_apply dotXW none _ _ (ix2 p q)).trans ?_
    refine (Equiv.sum_comp (contrEquiv1 dotXW 128 rfl rfl).symm _).symm.trans ?_
    refine Finset.sum_congr rfl fun k _ => ?_
    refine congrArg₂ (· * ·) ?_ ?_
    · exact congrArg x (dot_lhs_at p q k)
    · exact (congrArg _ (dot_rhs_at p q k)).trans (weightT_at w k q)
  · rw [shapeCast_self]
    exact broadcastTo_1b_ab_apply b broadcasts_S1x64_S5000x64 p q

/-! ## From blocks to the array -/

-- the buffer contents when the region is entered
variable (V : (c : Dev nD) → (b : Ref sig .tc) → Buf (Elt Ideal) ((c : Thread nD τ).loc b))

/-- The zero offsets of a whole-buffer access. -/
theorem zero_offsets : (![0, 0] : Fin 2 → Nat) = fun _ => 0 := funext fun a => by fin_cases a <;> rfl

/-- The body reads its three buffers whole and stores the result buffer whole once, so what it leaves in the result
    buffer is the arithmetic above of the three buffers' contents. -/
theorem stored_at (x : Vec Ideal S5000x128 .f32) (w : Vec Ideal S64x128 .f32) (b : Vec Ideal S1x64 .f32)
    (p : Fin 5000) (q : Fin 64) :
    out0_3 (F := Ideal) x w b (ix2 p q)
      = (∑ k : Fin 128, x (ix2 p k) * w (ix2 q k)) + b (ix2 (0 : Fin 1) q) := by
  unfold out0_3
  rw [View.canon_unit_zero zero_offsets]
  simp only [View.ld_unit_zero (S := S5000x128) zero_offsets, View.ld_unit_zero (S := S64x128) zero_offsets,
    View.ld_unit_zero (S := S1x64) zero_offsets]
  exact affine_at x w b p q

/-- Where each window's block sits at grid point `t`: the feature rows and the result rows at block `t` of their
    first axis, the weights and the bias always at their one block. Decided over the ten points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point `t`, entry `y`, is the feature array at row `5000 t + y 0`, column `y 1`. -/
theorem features_block_at (c : Dev nD) (t : Fin cfg0.N) (y : S5000x128.Idx) (i : S50000x128.Idx)
    (h0 : (i 0).val = t.val * 5000 + (y 0).val) (h1 : (i 1).val = (y 1).val) :
    (iblk0 (F := Ideal) V c 0 t : Vec Ideal S5000x128 .f32) y = (V c main_arg0 : S50000x128.Idx → EReal) i := by
  obtain ⟨e0, e1, -⟩ := block_indices t
  unfold iblk0
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight block at any point is the whole weight matrix. -/
theorem weights_block_at (c : Dev nD) (t : Fin cfg0.N) (y : S64x128.Idx) :
    (iblk0 (F := Ideal) V c 1 t : Vec Ideal S64x128 .f32) y = (V c main_arg3 : S64x128.Idx → EReal) y := by
  obtain ⟨-, -, e2, e3, -⟩ := block_indices t
  unfold iblk0
  show V c main_arg3 (((cfg0.win 1).blk t).view.emb y) = V c main_arg3 y
  refine congrArg (V c main_arg3) (funext fun a => Fin.ext ?_)
  match a with
  | ⟨0, _⟩ => show win0_1.index t (0 : Fin 2) * 64 + 1 * (y 0).val = (y 0).val; rw [e2]; omega
  | ⟨1, _⟩ => show win0_1.index t (1 : Fin 2) * 128 + 1 * (y 1).val = (y 1).val; rw [e3]; omega

/-- The bias block at any point is the whole one-row bias. -/
theorem bias_block_at (c : Dev nD) (t : Fin cfg0.N) (y : S1x64.Idx) :
    (iblk0 (F := Ideal) V c 2 t : Vec Ideal S1x64 .f32) y = (V c main_v0 : S1x64.Idx → EReal) y := by
  obtain ⟨-, -, -, -, e4, e5, -⟩ := block_indices t
  unfold iblk0
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; rw [e4]; omega
  | ⟨1, _⟩ => show win0_2.index t (1 : Fin 2) * 64 + 1 * (y 1).val = (y 1).val; rw [e5]; omega

/-- What point `t` writes back is rows `5000 t ... 5000 t + 4999` of the table: entry `(p, q)` of the stored block
    is the affine form of feature row `5000 t + p` against weight row `q`, which is the table at `(5000 t + p, q)`. -/
theorem written_rows (c : Dev nD) (t : Fin cfg0.N) :
    (dat0 (F := Ideal) V c).flushed 3 t
      = ((cfg0.win 3).blk t).view.read (Elt Ideal)
          (Cert.Spec.tableK (V c main_arg0) (V c main_arg3) (V c main_v0)) := by
  show (cfg0.win 3).cut (grid0.coords t) ((dat0 V c).after 3 t) = _
  rw [after0_3]
  obtain ⟨-, -, -, -, -, -, e6, e7⟩ := block_indices t
  funext j
  have hj0 : (j 0).val < 5000 := (j 0).isLt
  have hj1 : (j 1).val < 64 := (j 1).isLt
  have hx : (win0_3.xinj (grid0.coords t) j : S5000x64.Idx)
      = ix2 (⟨(j 0).val, hj0⟩ : Fin 5000) (⟨(j 1).val, hj1⟩ : Fin 64) :=
    funext fun a => match a with | ⟨0, _⟩ => rfl | ⟨1, _⟩ => rfl
  have hi0 : ((((cfg0.win 3).blk t).view.emb j : S50000x64.Idx) 0).val = t.val * 5000 + (j 0).val := by
    show win0_3.index t (0 : Fin 2) * 5000 + 1 * (j 0).val = _
    rw [e6]; omega
  have hi1 : ((((cfg0.win 3).blk t).view.emb j : S50000x64.Idx) 1).val = (j 1).val := by
    show win0_3.index t (1 : Fin 2) * 64 + 1 * (j 1).val = _
    rw [e7]; omega
  show out0_3 (iblk0 V c 0 t) (iblk0 V c 1 t) (iblk0 V c 2 t) (win0_3.xinj (grid0.coords t) j)
      = Cert.Spec.tableK (V c main_arg0) (V c main_arg3) (V c main_v0) (((cfg0.win 3).blk t).view.emb j)
  refine (congrArg (out0_3 (iblk0 V c 0 t) (iblk0 V c 1 t) (iblk0 V c 2 t)) hx).trans ?_
  refine (stored_at (iblk0 V c 0 t) (iblk0 V c 1 t) (iblk0 V c 2 t) _ _).trans ?_
  unfold Cert.Spec.tableK
  refine congrArg₂ (· + ·) (Finset.sum_congr rfl fun k _ => congrArg₂ (· * ·) ?_ ?_) ?_
  · exact features_block_at V c t _ _ hi0 rfl
  · refine (weights_block_at V c t _).trans (congrArg (V c main_arg3) (funext fun a => Fin.ext ?_))
    match a with
    | ⟨0, _⟩ => exact hi1.symm
    | ⟨1, _⟩ => rfl
  · refine (bias_block_at V c t _).trans (congrArg (V c main_v0) (funext fun a => Fin.ext ?_))
    match a with
    | ⟨0, _⟩ => rfl
    | ⟨1, _⟩ => exact hi1.symm

/-- A table index lies in point `t`'s block of the result exactly when each coordinate lies in the block's range. -/
theorem mem_rows (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v1).slice (win0_3.rect t)).set ↔ _
  rw [View.set_slice_whole, Rect.mem_set_unit]
  exact Iff.rfl

/-- Every table index is in some point's block: row `r` is in block `r / 5000`, and every block spans all 64 columns. -/
theorem rows_covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  have ht : (i 0).val / 5000 < cfg0.N := by show (i 0).val / 5000 < grid0.N; rw [hN]; omega
  obtain ⟨-, -, -, -, -, -, e6, e7⟩ := block_indices ⟨(i 0).val / 5000, ht⟩
  refine ⟨⟨(i 0).val / 5000, ht⟩, flush0_3 _, ?_⟩
  rw [mem_rows]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e7]; omega

/-- The region's result array is the node table of the arrays the region was entered with: every point writes its
    rows of that table, and the points' blocks cover the array. -/
theorem value (c : Dev nD) : (dat0 (F := Ideal) V c).arrAt 3 cfg0.N
    = Cert.Spec.tableK (V c main_arg0) (V c main_arg3) (V c main_v0) :=
  (dat0 V c).arrAt_eq_of_cover 3 _ (fun t _ => written_rows V c t) rows_covered

end Cert.KernelIdeal.KReg0

end
-- ==== Proof.KReg1.lean ====
/-
  The second kernel region's output array, read as a function of the arrays the region is entered with.

  The region walks 250 grid points. At point t its three row operands (two arrays of 800000 rows by 64 columns and one
  of 800000 by 16) and its output are at rows 3200 t … 3200 t + 3199; the three weight matrices and the one-row bias
  are whole at every point. The body stores, at row p and column q of the block,

    hj[p, q] · lrelu (((∑ k < 64, hi[p, k] · Wi[q, k]) + (∑ k < 64, hj[p, k] · Wj[q, k]))
                        + (∑ k < 16, ea[p, k] · We[q, k]) + b[0, q]),

  each product of a block with a transposed weight matrix being, over the extended reals, the plain sum over the
  shared axis (a change of float format is the identity there, and the accumulator is zero). So what point t writes
  back is block t of `Cert.Spec.msgK` of the arrays, and since row r lies in the block of point r / 3200 the blocks
  cover the output: the array ends holding `Cert.Spec.msgK` of the arrays.
-/
import proofs.«122028_j56788057588255_1_alg».proof.Proof.Gen.KernelIdeal.Frame
import proofs.«122028_j56788057588255_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KReg1

open Cert.KernelIdeal Cert.KernelIdeal.Gen Idealize.ShloMosaic Idealize.ShloMosaic.ValueIdx

/-! ## The products read at an index -/

/-- The transposed 64×64 matrix at (k, q) is the matrix at (q, k). -/
theorem transpose64_apply (w : FVec Ideal S64x64 .bf16) (k q : Fin 64) :
    transpose S64x64 [1, 0] w transposes_S64x64_p1_0_S64x64 (ix2 k q) = w (ix2 q k) := by
  refine transpose_apply [1, 0] w transposes_S64x64_p1_0_S64x64 (ix2 k q) (ix2 q k) fun b => ?_
  match b with
  | ⟨0, _⟩ => rfl
  | ⟨1, _⟩ => rfl

/-- The transposed 64×16 matrix at (k, q) is the matrix at (q, k). -/
theorem transpose16_apply (w : FVec Ideal S64x16 .bf16) (k : Fin 16) (q : Fin 64) :
    transpose S16x64 [1, 0] w transposes_S64x16_p1_0_S16x64 (ix2 k q) = w (ix2 q k) := by
  refine transpose_apply [1, 0] w transposes_S64x16_p1_0_S16x64 (ix2 k q) (ix2 q k) fun b => ?_
  match b with
  | ⟨0, _⟩ => rfl
  | ⟨1, _⟩ => rfl

/-- In the 3200×64 by 64×64 product the left factor's row is the result's row, whatever the summed position. -/
theorem lhs64_0 (i : S3200x64.Idx) (r : dot_S3200x64_S64x64_S3200x64_1_0_0_1_n_n.contr.Idx) :
    (dot_S3200x64_S64x64_S3200x64_1_0_0_1_n_n.lhsIdx i r 0).val = (i 0).val := by
  unfold DotDims.lhsIdx
  rw [dif_neg (show ¬(0 : Fin S3200x64.rank) ∈ dot_S3200x64_S64x64_S3200x64_1_0_0_1_n_n.lhsBatch by decide),
    dif_pos (show (0 : Fin S3200x64.rank) ∈ dot_S3200x64_S64x64_S3200x64_1_0_0_1_n_n.lhsNonContracting by decide)]
  rfl

/-- … and the right factor's column is the result's column. -/
theorem rhs64_1 (i : S3200x64.Idx) (r : dot_S3200x64_S64x64_S3200x64_1_0_0_1_n_n.contr.Idx) :
    (dot_S3200x64_S64x64_S3200x64_1_0_0_1_n_n.rhsIdx i r 1).val = (i 1).val := by
  unfold DotDims.rhsIdx
  rw [dif_neg (show ¬(1 : Fin S64x64.rank) ∈ dot_S3200x64_S64x64_S3200x64_1_0_0_1_n_n.rhsBatch by decide),
    dif_pos (show (1 : Fin S64x64.rank) ∈ dot_S3200x64_S64x64_S3200x64_1_0_0_1_n_n.rhsNonContracting by decide)]
  rfl

/-- A 3200×64 by 64×64 product into the zero accumulator, at (p, q): the sum over the shared axis. -/
theorem mm64_apply (l : FVec Ideal S3200x64 .bf16) (r : FVec Ideal S64x64 .bf16) (p : Fin 3200) (q : Fin 64) :
    matmul dot_S3200x64_S64x64_S3200x64_1_0_0_1_n_n none l r (constant S3200x64 .f32 0x00000000#32) (ix2 p q)
      = ∑ k : Fin 64, l (ix2 p k) * r (ix2 k q) := by
  simp only [matmul]
  rw [Ideal.matmul_constant_zero_apply, ← Equiv.sum_comp (contrEquiv1 dot_S3200x64_S64x64_S3200x64_1_0_0_1_n_n 64 rfl rfl).symm]
  refine Finset.sum_congr rfl fun k _ => ?_
  have hk := contrEquiv1_symm_val dot_S3200x64_S64x64_S3200x64_1_0_0_1_n_n 64 rfl rfl k
  have el : dot_S3200x64_S64x64_S3200x64_1_0_0_1_n_n.lhsIdx (ix2 p q) ((contrEquiv1 dot_S3200x64_S64x64_S3200x64_1_0_0_1_n_n 64 rfl rfl).symm k) = ix2 p k :=
    funext fun a => Fin.ext (by
      match a with
      | ⟨0, _⟩ => exact lhs64_0 _ _
      | ⟨1, _⟩ => exact (dot_S3200x64_S64x64_S3200x64_1_0_0_1_n_n.lhsIdx_val_of_single rfl _ _).trans hk)
  have er : dot_S3200x64_S64x64_S3200x64_1_0_0_1_n_n.rhsIdx (ix2 p q) ((contrEquiv1 dot_S3200x64_S64x64_S3200x64_1_0_0_1_n_n 64 rfl rfl).symm k) = ix2 k q :=
    funext fun a => Fin.ext (by
      match a with
      | ⟨0, _⟩ => exact (dot_S3200x64_S64x64_S3200x64_1_0_0_1_n_n.rhsIdx_val_of_single rfl _ _).trans hk
      | ⟨1, _⟩ => exact rhs64_1 _ _)
  rw [el, er]

/-- In the 3200×16 by 16×64 product the left factor's row is the result's row, whatever the summed position. -/
theorem lhs16_0 (i : S3200x64.Idx) (r : dot_S3200x16_S16x64_S3200x64_1_0_0_1_n_n.contr.Idx) :
    (dot_S3200x16_S16x64_S3200x64_1_0_0_1_n_n.lhsIdx i r 0).val = (i 0).val := by
  unfold DotDims.lhsIdx
  rw [dif_neg (show ¬(0 : Fin S3200x16.rank) ∈ dot_S3200x16_S16x64_S3200x64_1_0_0_1_n_n.lhsBatch by decide),
    dif_pos (show (0 : Fin S3200x16.rank) ∈ dot_S3200x16_S16x64_S3200x64_1_0_0_1_n_n.lhsNonContracting by decide)]
  rfl

/-- … and the right factor's column is the result's column. -/
theorem rhs16_1 (i : S3200x64.Idx) (r : dot_S3200x16_S16x64_S3200x64_1_0_0_1_n_n.contr.Idx) :
    (dot_S3200x16_S16x64_S3200x64_1_0_0_1_n_n.rhsIdx i r 1).val = (i 1).val := by
  unfold DotDims.rhsIdx
  rw [dif_neg (show ¬(1 : Fin S16x64.rank) ∈ dot_S3200x16_S16x64_S3200x64_1_0_0_1_n_n.rhsBatch by decide),
    dif_pos (show (1 : Fin S16x64.rank) ∈ dot_S3200x16_S16x64_S3200x64_1_0_0_1_n_n.rhsNonContracting by decide)]
  rfl

/-- A 3200×16 by 16×64 product into the zero accumulator, at (p, q): the sum over the shared axis. -/
theorem mm16_apply (l : FVec Ideal S3200x16 .bf16) (r : FVec Ideal S16x64 .bf16) (p : Fin 3200) (q : Fin 64) :
    matmul dot_S3200x16_S16x64_S3200x64_1_0_0_1_n_n none l r (constant S3200x64 .f32 0x00000000#32) (ix2 p q)
      = ∑ k : Fin 16, l (ix2 p k) * r (ix2 k q) := by
  simp only [matmul]
  rw [Ideal.matmul_constant_zero_apply, ← Equiv.sum_comp (contrEquiv1 dot_S3200x16_S16x64_S3200x64_1_0_0_1_n_n 16 rfl rfl).symm]
  refine Finset.sum_congr rfl fun k _ => ?_
  have hk := contrEquiv1_symm_val dot_S3200x16_S16x64_S3200x64_1_0_0_1_n_n 16 rfl rfl k
  have el : dot_S3200x16_S16x64_S3200x64_1_0_0_1_n_n.lhsIdx (ix2 p q) ((contrEquiv1 dot_S3200x16_S16x64_S3200x64_1_0_0_1_n_n 16 rfl rfl).symm k) = ix2 p k :=
    funext fun a => Fin.ext (by
      match a with
      | ⟨0, _⟩ => exact lhs16_0 _ _
      | ⟨1, _⟩ => exact (dot_S3200x16_S16x64_S3200x64_1_0_0_1_n_n.lhsIdx_val_of_single rfl _ _).trans hk)
  have er : dot_S3200x16_S16x64_S3200x64_1_0_0_1_n_n.rhsIdx (ix2 p q) ((contrEquiv1 dot_S3200x16_S16x64_S3200x64_1_0_0_1_n_n 16 rfl rfl).symm k) = ix2 k q :=
    funext fun a => Fin.ext (by
      match a with
      | ⟨0, _⟩ => exact (dot_S3200x16_S16x64_S3200x64_1_0_0_1_n_n.rhsIdx_val_of_single rfl _ _).trans hk
      | ⟨1, _⟩ => exact rhs16_1 _ _)
  rw [el, er]

/-- The same product against a TRANSPOSED 64×64 right factor: entry (p, q) is ∑ k, l[p, k] · w[q, k]. -/
theorem mm64T_apply (l : FVec Ideal S3200x64 .bf16) (w : FVec Ideal S64x64 .bf16) (p : Fin 3200) (q : Fin 64) :
    matmul dot_S3200x64_S64x64_S3200x64_1_0_0_1_n_n none l (transpose S64x64 [1, 0] w transposes_S64x64_p1_0_S64x64)
        (constant S3200x64 .f32 0x00000000#32) (ix2 p q)
      = ∑ k : Fin 64, l (ix2 p k) * w (ix2 q k) := by
  rw [mm64_apply]
  refine Finset.sum_congr rfl fun k _ => ?_
  rw [transpose64_apply]

/-- The same product against a TRANSPOSED 64×16 right factor: entry (p, q) is ∑ k, l[p, k] · w[q, k]. -/
theorem mm16T_apply (l : FVec Ideal S3200x16 .bf16) (w : FVec Ideal S64x16 .bf16) (p : Fin 3200) (q : Fin 64) :
    matmul dot_S3200x16_S16x64_S3200x64_1_0_0_1_n_n none l (transpose S16x64 [1, 0] w transposes_S64x16_p1_0_S16x64)
        (constant S3200x64 .f32 0x00000000#32) (ix2 p q)
      = ∑ k : Fin 16, l (ix2 p k) * w (ix2 q k) := by
  rw [mm16_apply]
  refine Finset.sum_congr rfl fun k _ => ?_
  rw [transpose16_apply]

/-! ## The body's stored value at an index -/

/-- The body's stored value at row p, column q of the block: the second row operand's entry times the leaky
    rectifier of the three band sums, added left to right, plus the bias row's entry. -/
theorem pay_apply (x0 x1 : Vec Ideal S3200x64 .f32) (x2 : Vec Ideal S3200x16 .f32) (x3 x4 : Vec Ideal S64x64 .f32)
    (x5 : Vec Ideal S64x16 .f32) (x6 : Vec Ideal S1x64 .f32) (x7 : Vec Ideal S3200x64 .f32) (p : Fin 3200) (q : Fin 64) :
    k1_pay1 (F := Ideal) x0 x1 x2 x3 x4 x5 x6 x7 (ix2 p q)
      = x7 (ix2 p q) * Cert.Spec.lrelu ((((∑ k : Fin 64, x0 (ix2 p k) * x3 (ix2 q k))
          + (∑ k : Fin 64, x1 (ix2 p k) * x4 (ix2 q k)))
          + (∑ k : Fin 16, x2 (ix2 p k) * x5 (ix2 q k)))
        + x6 (ix2 (0 : Fin 1) q)) := by
  unfold k1_pay1
  simp only [shapeCast_self, mulf_apply, select_apply, cmpf_apply, broadcast_apply, addf_apply, broadcastTo_1b_ab_apply]
  rw [mm64T_apply, mm64T_apply, mm16T_apply]
  simp only [truncf_apply]
  rfl

/-- The payload at (p, q) of blocks that hold row r of the row arrays, and the weight and bias arrays themselves,
    is the specification at (r, q). Stated over plain arrays and blocks. -/
theorem pay_eq_msgK (hi hj : (⟨2, ![800000, 64]⟩ : Shape).Idx → EReal) (ea : (⟨2, ![800000, 16]⟩ : Shape).Idx → EReal)
    (Wi Wj : (⟨2, ![64, 64]⟩ : Shape).Idx → EReal) (We : (⟨2, ![64, 16]⟩ : Shape).Idx → EReal)
    (b2 : (⟨2, ![1, 64]⟩ : Shape).Idx → EReal)
    (x0 x1 : Vec Ideal S3200x64 .f32) (x2 : Vec Ideal S3200x16 .f32) (x3 x4 : Vec Ideal S64x64 .f32)
    (x5 : Vec Ideal S64x16 .f32) (x6 : Vec Ideal S1x64 .f32) (x7 : Vec Ideal S3200x64 .f32)
    (p : Fin 3200) (q : Fin 64) (r : Fin 800000)
    (h0 : ∀ k : Fin 64, x0 (ix2 p k) = hi (ix2 r k)) (h1 : ∀ k : Fin 64, x1 (ix2 p k) = hj (ix2 r k))
    (h2 : ∀ k : Fin 16, x2 (ix2 p k) = ea (ix2 r k))
    (h3 : ∀ k : Fin 64, x3 (ix2 q k) = Wi (ix2 q k)) (h4 : ∀ k : Fin 64, x4 (ix2 q k) = Wj (ix2 q k))
    (h5 : ∀ k : Fin 16, x5 (ix2 q k) = We (ix2 q k))
    (h6 : x6 (ix2 (0 : Fin 1) q) = b2 (ix2 (0 : Fin 1) q)) (h7 : x7 (ix2 p q) = hj (ix2 r q)) :
    k1_pay1 (F := Ideal) x0 x1 x2 x3 x4 x5 x6 x7 (ix2 p q) = Cert.Spec.msgK hi hj ea Wi Wj We b2 (ix2 r q) := by
  rw [pay_apply]
  show _ = hj (ix2 r q) * Cert.Spec.lrelu ((((∑ k : Fin 64, hi (ix2 r k) * Wi (ix2 q k))
          + (∑ k : Fin 64, hj (ix2 r k) * Wj (ix2 q k)))
          + (∑ k : Fin 16, ea (ix2 r k) * We (ix2 q k)))
        + b2 (ix2 (0 : Fin 1) q))
  simp only [h0, h1, h2, h3, h4, h5, h6, h7]

/-! ## From blocks to the array -/

open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the 250 grid points: the three row operands and the output move one block of 3200 rows
    per point, the weight and bias operands stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of the first row operand's block at point t is row 3200 t + p of its array. -/
theorem emb0 (t : Fin cfg1.N) (p : Fin 3200) (b : Fin 64) (r : Fin 800000) (hr : r.val = t.val * 3200 + p.val) :
    ((cfg1.win 0).blk t).view.emb (ix2 p b) = ix2 r b := by
  obtain ⟨e0, e1, -⟩ := idx_facts t
  funext a; apply Fin.ext
  match a with
  | ⟨0, _⟩ => show win1_0.index t (0 : Fin 2) * 3200 + 1 * p.val = r.val; omega
  | ⟨1, _⟩ => show win1_0.index t (1 : Fin 2) * 64 + 1 * b.val = b.val; omega

/-- The same for the second row operand. -/
theorem emb1 (t : Fin cfg1.N) (p : Fin 3200) (b : Fin 64) (r : Fin 800000) (hr : r.val = t.val * 3200 + p.val) :
    ((cfg1.win 1).blk t).view.emb (ix2 p b) = ix2 r b := by
  obtain ⟨-, -, e0, e1, -⟩ := idx_facts t
  funext a; apply Fin.ext
  match a with
  | ⟨0, _⟩ => show win1_1.index t (0 : Fin 2) * 3200 + 1 * p.val = r.val; omega
  | ⟨1, _⟩ => show win1_1.index t (1 : Fin 2) * 64 + 1 * b.val = b.val; omega

/-- The same for the 16-column row operand. -/
theorem emb2 (t : Fin cfg1.N) (p : Fin 3200) (b : Fin 16) (r : Fin 800000) (hr : r.val = t.val * 3200 + p.val) :
    ((cfg1.win 2).blk t).view.emb (ix2 p b) = ix2 r b := by
  obtain ⟨-, -, -, -, e0, e1, -⟩ := idx_facts t
  funext a; apply Fin.ext
  match a with
  | ⟨0, _⟩ => show win1_2.index t (0 : Fin 2) * 3200 + 1 * p.val = r.val; omega
  | ⟨1, _⟩ => show win1_2.index t (1 : Fin 2) * 16 + 1 * b.val = b.val; omega

/-- The first weight matrix's block is the whole matrix at every point. -/
theorem emb3 (t : Fin cfg1.N) (a0 b : Fin 64) : ((cfg1.win 3).blk t).view.emb (ix2 a0 b) = ix2 a0 b := by
  obtain ⟨-, -, -, -, -, -, e0, e1, -⟩ := idx_facts t
  funext a; apply Fin.ext
  match a with
  | ⟨0, _⟩ => show win1_3.index t (0 : Fin 2) * 64 + 1 * a0.val = a0.val; omega
  | ⟨1, _⟩ => show win1_3.index t (1 : Fin 2) * 64 + 1 * b.val = b.val; omega

/-- So is the second weight matrix's. -/
theorem emb4 (t : Fin cfg1.N) (a0 b : Fin 64) : ((cfg1.win 4).blk t).view.emb (ix2 a0 b) = ix2 a0 b := by
  obtain ⟨-, -, -, -, -, -, -, -, e0, e1, -⟩ := idx_facts t
  funext a; apply Fin.ext
  match a with
  | ⟨0, _⟩ => show win1_4.index t (0 : Fin 2) * 64 + 1 * a0.val = a0.val; omega
  | ⟨1, _⟩ => show win1_4.index t (1 : Fin 2) * 64 + 1 * b.val = b.val; omega

/-- So is the 16-column weight matrix's. -/
theorem emb5 (t : Fin cfg1.N) (a0 : Fin 64) (b : Fin 16) : ((cfg1.win 5).blk t).view.emb (ix2 a0 b) = ix2 a0 b := by
  obtain ⟨-, -, -, -, -, -, -, -, -, -, e0, e1, -⟩ := idx_facts t
  funext a; apply Fin.ext
  match a with
  | ⟨0, _⟩ => show win1_5.index t (0 : Fin 2) * 64 + 1 * a0.val = a0.val; omega
  | ⟨1, _⟩ => show win1_5.index t (1 : Fin 2) * 16 + 1 * b.val = b.val; omega

/-- So is the one-row bias's. -/
theorem emb6 (t : Fin cfg1.N) (a0 : Fin 1) (b : Fin 64) : ((cfg1.win 6).blk t).view.emb (ix2 a0 b) = ix2 a0 b := by
  obtain ⟨-, -, -, -, -, -, -, -, -, -, -, -, e0, e1, -⟩ := idx_facts t
  funext a; apply Fin.ext
  match a with
  | ⟨0, _⟩ => show win1_6.index t (0 : Fin 2) * 1 + 1 * a0.val = a0.val; omega
  | ⟨1, _⟩ => show win1_6.index t (1 : Fin 2) * 64 + 1 * b.val = b.val; omega

/-- Row p of the output's block at point t is row 3200 t + p of the output array. -/
theorem emb7 (t : Fin cfg1.N) (p : Fin 3200) (b : Fin 64) (r : Fin 800000) (hr : r.val = t.val * 3200 + p.val) :
    ((cfg1.win 7).blk t).view.emb (ix2 p b) = ix2 r b := by
  obtain ⟨-, -, -, -, -, -, -, -, -, -, -, -, -, -, e0, e1⟩ := idx_facts t
  funext a; apply Fin.ext
  match a with
  | ⟨0, _⟩ => show win1_7.index t (0 : Fin 2) * 3200 + 1 * p.val = r.val; omega
  | ⟨1, _⟩ => show win1_7.index t (1 : Fin 2) * 64 + 1 * b.val = b.val; omega

/-- The specification of the arrays as the region finds them. -/
abbrev G (c : Dev nD) : (⟨2, ![800000, 64]⟩ : Shape).Idx → EReal :=
  Cert.Spec.msgK (V c main_v6) (V c main_v7) (V c main_arg2) (V c main_v8) (V c main_v9) (V c main_v10) (V c main_v11)

/-- What point t writes back is block t of the specification: rows 3200 t … 3200 t + 3199. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  unfold out1_7
  rw [View.canon_unit_zero hz]
  simp only [View.ld_unit_zero (S := S3200x64) hz, View.ld_unit_zero (S := S3200x16) hz, View.ld_unit_zero (S := S64x64) hz,
    View.ld_unit_zero (S := S64x16) hz, View.ld_unit_zero (S := S1x64) hz]
  funext j
  obtain ⟨p, q, rfl⟩ : ∃ (p : Fin 3200) (q : Fin 64), j = ix2 p q := ⟨j 0, j 1, eq_ix2 j⟩
  have hN : cfg1.N = 250 := N_1
  have hr : t.val * 3200 + p.val < 800000 := by have := t.isLt; have := p.isLt; omega
  show k1_pay1 (F := Ideal) (iblk1 V c 0 t) (iblk1 V c 1 t) (iblk1 V c 2 t) (iblk1 V c 3 t) (iblk1 V c 4 t) (iblk1 V c 5 t)
      (iblk1 V c 6 t) (iblk1 V c 1 t) (ix2 p q) = G V c (((cfg1.win 7).blk t).view.emb (ix2 p q))
  rw [emb7 t p q ⟨_, hr⟩ rfl]
  refine pay_eq_msgK (V c main_v6) (V c main_v7) (V c main_arg2) (V c main_v8) (V c main_v9) (V c main_v10) (V c main_v11)
    (iblk1 V c 0 t) (iblk1 V c 1 t) (iblk1 V c 2 t) (iblk1 V c 3 t) (iblk1 V c 4 t) (iblk1 V c 5 t) (iblk1 V c 6 t) (iblk1 V c 1 t)
    p q ⟨_, hr⟩ (fun k => ?_) (fun k => ?_) (fun k => ?_) (fun k => ?_) (fun k => ?_) (fun k => ?_) ?_ ?_
  · show V c main_v6 (((cfg1.win 0).blk t).view.emb (ix2 p k)) = _; rw [emb0 t p k ⟨_, hr⟩ rfl]
  · show V c main_v7 (((cfg1.win 1).blk t).view.emb (ix2 p k)) = _; rw [emb1 t p k ⟨_, hr⟩ rfl]
  · show V c main_arg2 (((cfg1.win 2).blk t).view.emb (ix2 p k)) = _; rw [emb2 t p k ⟨_, hr⟩ rfl]
  · show V c main_v8 (((cfg1.win 3).blk t).view.emb (ix2 q k)) = _; rw [emb3 t q k]
  · show V c main_v9 (((cfg1.win 4).blk t).view.emb (ix2 q k)) = _; rw [emb4 t q k]
  · show V c main_v10 (((cfg1.win 5).blk t).view.emb (ix2 q k)) = _; rw [emb5 t q k]
  · show V c main_v11 (((cfg1.win 6).blk t).view.emb (ix2 (0 : Fin 1) q)) = _; rw [emb6 t 0 q]
  · show V c main_v7 (((cfg1.win 1).blk t).view.emb (ix2 p q)) = _; rw [emb1 t p q ⟨_, hr⟩ rfl]

/-- An index of the output array is in point t's block iff each coordinate is in the block's range. -/
theorem mem_blk (t : Fin cfg1.N) (i : S800000x64.Idx) :
    i ∈ ((cfg1.win 7).blk t).view.set ↔ ∀ a : Fin 2, win1_7.index t a * S3200x64.size a ≤ (i a).val ∧ (i a).val < win1_7.index t a * S3200x64.size a + S3200x64.size a := by
  show i ∈ ((View.whole main_v12).slice (win1_7.rect t)).set ↔ _
  rw [View.set_slice_whole, Rect.mem_set_unit]
  exact Iff.rfl

/-- Every row r of the output lies in the block of point r / 3200. -/
theorem cover (i : S800000x64.Idx) : ∃ t : Fin cfg1.N, (cfg1.win 7).flush t = true ∧ i ∈ ((cfg1.win 7).blk t).view.set := by
  have hN : cfg1.N = 250 := N_1
  have hi0 : (i 0).val < 800000 := (i 0).isLt
  have hi1 : (i 1).val < 64 := (i 1).isLt
  refine ⟨⟨(i 0).val / 3200, by omega⟩, flush1_7 _, ?_⟩
  rw [mem_blk]
  obtain ⟨-, -, -, -, -, -, -, -, -, -, -, -, -, -, e0, e1⟩ := idx_facts ⟨(i 0).val / 3200, by omega⟩
  intro a
  match a with
  | ⟨0, _⟩ =>
    show win1_7.index ⟨(i 0).val / 3200, _⟩ (0 : Fin 2) * 3200 ≤ (i 0).val ∧ (i 0).val < win1_7.index ⟨(i 0).val / 3200, _⟩ (0 : Fin 2) * 3200 + 3200
    rw [e0]; show (i 0).val / 3200 * 3200 ≤ (i 0).val ∧ (i 0).val < (i 0).val / 3200 * 3200 + 3200; omega
  | ⟨1, _⟩ =>
    show win1_7.index ⟨(i 0).val / 3200, _⟩ (1 : Fin 2) * 64 ≤ (i 1).val ∧ (i 1).val < win1_7.index ⟨(i 0).val / 3200, _⟩ (1 : Fin 2) * 64 + 64
    rw [e1]; omega

/-- The second region's output array after its run is the specification of the arrays the region finds. -/
theorem value (c : Dev nD) : (dat1 (F := Ideal) V c).arrAt 7 cfg1.N
    = Cert.Spec.msgK (V c main_v6) (V c main_v7) (V c main_arg2) (V c main_v8) (V c main_v9) (V c main_v10) (V c main_v11) :=
  (dat1 (F := Ideal) V c).arrAt_eq_of_cover 7 (G V c) (fun t _ => flushed_eq V c t) cover

end Cert.KernelIdeal.KReg1

end
-- ==== Proof.LibIndexWords.lean ====
/-
  Index words that name rows of a table of 50000 rows, and the row gather read at one element.

  An index word is a 32-bit word read as a signed integer.  When that integer lies in `[0, 50000)`:
  the "wrap a negative index" select leaves the word alone, the two-sided bounds test answers `1`, the row the
  word names is its value as a natural number, and a gather of whole rows of a `[50000, 64]` table by a column
  of such words reads, at edge `e` and column `c`, the table at row `idx[e, 0]`, column `c` — the clamp of the
  start index into `[0, 49999]` changes nothing.
-/
import Idealize.ShloMosaic.PureOps.Ideal
import Idealize.ShloMosaic.Lib.ValueIdx
import Idealize.ShloMosaic.Lib.Affine
import proofs.«122028_j56788057588255_1_alg».proof.Proof.Spec

namespace Cert.LibIndexWords

open Idealize.ShloMosaic Idealize.ShloMosaic.ValueIdx

/-- A word whose signed value is nonnegative has that value equal to its unsigned one. -/
theorem toInt_eq_toNat (v : BitVec 32) (h0 : 0 ≤ v.toInt) : v.toInt = (v.toNat : Int) := by
  have h := BitVec.toInt_eq_toNat_cond v
  have hlt := v.isLt
  split at h <;> omega

/-- A word whose signed value lies in `[0, 50000)` has unsigned value below 50000. -/
theorem toNat_lt (v : BitVec 32) (h0 : 0 ≤ v.toInt) (h1 : v.toInt < 50000) : v.toNat < 50000 := by
  have := toInt_eq_toNat v h0; omega

/-- Wrapping a negative index (`v < 0 ? v + 50000 : v`) leaves a nonnegative word unchanged. -/
theorem wrap_eq (v : BitVec 32) (h0 : 0 ≤ v.toInt) :
    Scalar.select (IntOp.cmpi .slt v 0#32) (IntOp.addi v 50000#32) v = v := by
  have hne : ¬ IntOp.cmpi .slt v 0#32 = 1#1 := by
    rw [IntOp.cmpi_slt]
    have e0 : (0#32 : BitVec 32).toInt = 0 := by decide
    rw [e0]; omega
  exact if_neg hne

/-- The bounds test `0 ≤ v ∧ v ≤ 49999` answers `1` on a word in range. -/
theorem inb_eq (v : BitVec 32) (h0 : 0 ≤ v.toInt) (h1 : v.toInt < 50000) :
    IntOp.andi (IntOp.cmpi .sge v 0#32) (IntOp.cmpi .sle v 49999#32) = 1#1 := by
  have e0 : (0#32 : BitVec 32).toInt = 0 := by decide
  have e1 : (49999#32 : BitVec 32).toInt = 49999 := by decide
  rw [IntOp.andi_eq_one, IntOp.cmpi_sge, IntOp.cmpi_sle, e0, e1]
  exact ⟨h0, by omega⟩

/-- The row a word in range names is the word's unsigned value: the reduction modulo 50000 does nothing. -/
theorem row_val (v : BitVec 32) (h0 : 0 ≤ v.toInt) (h1 : v.toInt < 50000) : (Cert.Spec.row v).val = v.toNat := by
  have := toNat_lt v h0 h1
  show v.toNat % 50000 = v.toNat
  exact Nat.mod_eq_of_lt this

/-- The dimension numbers of a gather of whole rows: operand `[50000, 64]`, start indices `[800000, 1]` (one row
    number per edge), result `[800000, 64]`; the row axis is collapsed, the column axis is the offset axis. -/
abbrev rowDims (wf : GatherDims.WF (⟨2, ![50000, 64]⟩ : Shape) ⟨2, ![800000, 1]⟩ ⟨2, ![800000, 64]⟩ [1] [0] [] [0] [] 1 ![1, 64]) :
    GatherDims (⟨2, ![50000, 64]⟩ : Shape) ⟨2, ![800000, 1]⟩ ⟨2, ![800000, 64]⟩ where
  offsetDims := [1]
  collapsedSliceDims := [0]
  operandBatchingDims := []
  startIndicesBatchingDims := []
  startIndexMap := [0]
  indexVectorDim := 1
  sliceSizes := ![1, 64]
  wf := wf

/-- a row gather of a [50000, 64] table by [800000, 1] start indices, at an index word in range -/
theorem gather_rows_apply {α : Type} (wf : GatherDims.WF (⟨2, ![50000, 64]⟩ : Shape) ⟨2, ![800000, 1]⟩ ⟨2, ![800000, 64]⟩ [1] [0] [] [0] [] 1 ![1, 64])
    (x : (⟨2, ![50000, 64]⟩ : Shape).Idx → α) (idx : IVec ⟨2, ![800000, 1]⟩ 32) (e : Fin 800000) (c : Fin 64)
    (h0 : 0 ≤ (idx (ix2 e (0 : Fin 1))).toInt) (h1 : (idx (ix2 e (0 : Fin 1))).toInt < 50000) :
    Host.gather { offsetDims := [1], collapsedSliceDims := [0], operandBatchingDims := [], startIndicesBatchingDims := [],
                  startIndexMap := [0], indexVectorDim := 1, sliceSizes := ![1, 64], wf := wf } x idx (ix2 e c)
      = x (ix2 (Cert.Spec.row (idx (ix2 e (0 : Fin 1)))) c) := by
  show Host.gather (rowDims wf) x idx (ix2 e c) = _
  unfold Host.gather
  refine congrArg x ?_
  -- the row coordinate: the clamped start index, nothing added
  have hrow : ((rowDims wf).operandIdx (ix2 e c) idx (0 : Fin 2)).val = (Cert.Spec.row (idx (ix2 e (0 : Fin 1)))).val := by
    show (rowDims wf).start (ix2 e c) idx 0 + (rowDims wf).batchCoord (ix2 e c) 0 + (rowDims wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix2 e c) ⟨List.idxOf (0 : Fin 2) (rowDims wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    have hv := toInt_eq_toNat _ h0
    have hlt := toNat_lt _ h0 h1
    show min (idx (ix2 e (0 : Fin 1))).toInt.toNat (50000 - 1) = (Cert.Spec.row (idx (ix2 e (0 : Fin 1)))).val
    rw [row_val _ h0 h1, hv, Int.toNat_natCast]
    omega
  -- the column coordinate: no start index on that axis, the result's column as the offset
  have hcol : ((rowDims wf).operandIdx (ix2 e c) idx (1 : Fin 2)).val = c.val := by
    show (rowDims wf).start (ix2 e c) idx 1 + (rowDims wf).batchCoord (ix2 e c) 1 + (rowDims wf).offCoord (ix2 e c) 1 = _
    rw [GatherDims.batchCoord_eq_zero _ _ _ List.not_mem_nil]
    have hs : (rowDims wf).start (ix2 e c) idx 1 = 0 := by
      unfold GatherDims.start
      exact dif_neg (show (1 : Fin 2) ∉ ([0] : List (Fin 2)) from by decide)
    have ho : (rowDims wf).offCoord (ix2 e c) 1 = c.val := by
      unfold GatherDims.offCoord
      rw [dif_pos ((GatherDims.mem_sKept (rowDims wf) 1).mpr
        ⟨show (1 : Fin 2) ∉ ([0] : List (Fin 2)) from by decide, List.not_mem_nil⟩)]
      rfl
    rw [hs, ho]; omega
  funext a
  refine Fin.ext ?_
  match a with
  | ⟨0, _⟩ => exact hrow
  | ⟨1, _⟩ => exact hcol

end Cert.LibIndexWords
-- ==== Proof.KBridge.lean ====
/-
  The kernel program's host stretches, read index by index over the extended reals, against the specification.

  On index words that name rows of the table (signed value in `[0, 50000)`) the guarded row gather reads the row
  the word names: the index normalisation leaves the word unchanged, the range test on the normalised word is true
  — so its reduction by `and` over the one-element axis is the bit 1 and the selection keeps the gathered row,
  never the fill value — and the gather reads the row.  The operands the two kernel regions are given — the bias as
  a one-row matrix, the gate weights cut into their three column bands of 64, 64 and 16 columns — are re-arrangements
  of the arguments, so the regions' closed forms over them are the specification's table and message.
-/
import proofs.«122028_j56788057588255_1_alg».proof.Proof.KHost
import proofs.«122028_j56788057588255_1_alg».proof.Proof.Spec
import proofs.«122028_j56788057588255_1_alg».proof.Proof.LibIndexWords
import Idealize.ShloMosaic.Lib.ValueLayout
import Idealize.ShloMosaic.PureOps.Reduce

noncomputable section

open scoped BigOperators

namespace Cert.KernelIdeal.KBridge

open Cert.KernelIdeal Cert.KernelIdeal.Gen
open Idealize.ShloMosaic Idealize.ShloMosaic.ValueIdx

/-! ## The two rows of the edge index -/

/-- Entry `e` of the first index vector is `idx[0, e]`. -/
theorem srcK_apply (a1 : IVec S2x800000 32) (e : Fin 800000) : KHost.srcK a1 (ix1 e) = a1 (ix2 (0 : Fin 2) e) := by
  unfold KHost.srcK
  rw [shapeCast_1a_a_apply]
  exact slice2_axis0_apply 0 a1 _ (0 : Fin 1) e (0 : Fin 2) rfl

/-- Entry `e` of the second index vector is `idx[1, e]`. -/
theorem dstK_apply (a1 : IVec S2x800000 32) (e : Fin 800000) : KHost.dstK a1 (ix1 e) = a1 (ix2 (1 : Fin 2) e) := by
  unfold KHost.dstK
  rw [shapeCast_1a_a_apply]
  exact slice2_axis0_apply 1 a1 _ (0 : Fin 1) e (1 : Fin 2) rfl

/-! ## The index normalisation -/

/-- On a non-negative index word the normalisation changes nothing: the start index of edge `e` is the word. -/
theorem wrapK_apply (v : IVec S800000 32) (e : Fin 800000) (h0 : 0 ≤ (v (ix1 e)).toInt) :
    KHost.wrapK v (ix2 e (0 : Fin 1)) = v (ix1 e) := by
  unfold KHost.wrapK
  rw [broadcastInDim_apply ![0] _ _ (ix2 e (0 : Fin 1)) (ix1 e) fun a => by
    match a with
    | ⟨0, _⟩ => rfl]
  exact Cert.LibIndexWords.wrap_eq (v (ix1 e)) h0

/-! ## The range test, reduced by `and` over its one-element axis -/

/-- A left fold by `and` from the bit 1 over bits that are all 1 is the bit 1. -/
theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a List.mem_cons_self]; rfl
    rw [List.foldl_cons, ha]
    exact foldl_andi_of_forall f l fun n hn => h n (List.mem_cons_of_mem _ hn)

/-- A one-column matrix of bits reduced by `and` along its column axis, from the bit 1: row `e` of the result is 1
    when the row's one bit is. -/
theorem reduce_andi_column (x : IVec S800000x1 1) (init : IVec S_ 1) (h : S800000x1.ReducesTo [1] S800000)
    (hu : 0 < S_.numel) (hinit : init (Shape.Idx.first hu) = 1#1) (e : Fin 800000)
    (hx : x (ix2 e (0 : Fin 1)) = 1#1) : Host.reduce IntOp.andi x init h hu (ix1 e) = 1#1 := by
  rw [Host.reduce_eq_foldl, hinit]
  refine foldl_andi_of_forall x _ fun n hn => ?_
  have hd : h.drop n = ix1 e := of_decide_eq_true (List.mem_filter.1 hn).2
  have hv : ((h.drop n) 0 : Nat) = (n 0 : Nat) := Shape.ReducesTo.drop_apply_val_of_eq h n 0 0
  have h0 : (n 0).val = e.val := hv.symm.trans (congrArg (fun j : S800000.Idx => (j 0).val) hd)
  have hn : n = ix2 e (0 : Fin 1) := by
    funext a
    match a with
    | ⟨0, _⟩ => exact Fin.ext h0
    | ⟨1, _⟩ => exact Subsingleton.elim (α := Fin 1) _ _
  rw [hn]
  exact hx

/-- The range test is true at an edge whose start index lies in `[0, 50000)`. -/
theorem okK_apply (i : IVec S800000x1 32) (e : Fin 800000) (h0 : 0 ≤ (i (ix2 e (0 : Fin 1))).toInt)
    (h1 : (i (ix2 e (0 : Fin 1))).toInt < 50000) : KHost.okK i (ix1 e) = 1#1 := by
  unfold KHost.okK
  exact reduce_andi_column _ _ _ _ rfl e (Cert.LibIndexWords.inb_eq (i (ix2 e (0 : Fin 1))) h0 h1)

/-! ## The guarded row gather -/

/-- The gathered row of edge `e` is the table row its index word names, when the word lies in `[0, 50000)`: the
    guard is true there, so the fill value is never read. -/
theorem takeK_apply (h : FVec Ideal S50000x64 .f32) (v : IVec S800000 32) (e : Fin 800000) (k : Fin 64)
    (h0 : 0 ≤ (v (ix1 e)).toInt) (h1 : (v (ix1 e)).toInt < 50000) :
    KHost.takeK (F := Ideal) h v (ix2 e k) = h (ix2 (Cert.Spec.row (v (ix1 e))) k) := by
  unfold KHost.takeK
  have hw := wrapK_apply v e h0
  have hg := Cert.LibIndexWords.gather_rows_apply
    gather_S50000x64_S800000x1_S800000x64_1_0_n_n_0_1_164_wf h (KHost.wrapK v) e k
    (by rw [hw]; exact h0) (by rw [hw]; exact h1)
  rw [hw] at hg
  rw [select_apply, broadcastInDim_apply ![0] _ (KHost.okK (KHost.wrapK v)) (ix2 e k) (ix1 e) fun a => by
    match a with
    | ⟨0, _⟩ => rfl,
    okK_apply (KHost.wrapK v) e (by rw [hw]; exact h0) (by rw [hw]; exact h1), select_one]
  exact hg

/-! ## The regions' closed forms over the re-arranged operands -/

/-- The first region's closed form, given the bias as a one-row matrix, is the specification's table. -/
theorem tableK_eq (a0 : FVec Ideal S50000x128 .f32) (a3 : FVec Ideal S64x128 .f32) (a4 : FVec Ideal S64 .f32) :
    Cert.Spec.tableK a0 a3 (shapeCast S1x64 a4 shapeCasts_S64_S1x64) = Cert.Spec.table a0 a3 a4 := by
  funext i
  obtain ⟨n, c, rfl⟩ : ∃ (n : Fin 50000) (c : Fin 64), i = ix2 n c := ⟨i 0, i 1, eq_ix2 i⟩
  show (∑ k : Fin 128, a0 (ix2 n k) * a3 (ix2 c k)) + shapeCast S1x64 a4 shapeCasts_S64_S1x64 (ix2 (0 : Fin 1) c)
    = (∑ k : Fin 128, a0 (ix2 n k) * a3 (ix2 c k)) + a4 (ix1 c)
  rw [shapeCast_a_1a_apply]

/-- The second region's closed form — given the two guarded gathers of a table `h`, the edge attributes, the gate
    weights cut into their three column bands and the gate bias as a one-row matrix — is the specification's
    message over `h`, on index words in range. -/
theorem msgK_eq (h : FVec Ideal S50000x64 .f32) (a1 : IVec S2x800000 32) (a2 : FVec Ideal S800000x16 .f32)
    (a5 : FVec Ideal S64x144 .f32) (a6 : FVec Ideal S64 .f32) (hr : Cert.Spec.InRange a1) :
    Cert.Spec.msgK (KHost.takeK (F := Ideal) h (KHost.srcK a1)) (KHost.takeK (F := Ideal) h (KHost.dstK a1)) a2
        (extractStridedSlice S64x64 ![0, 0] a5 slices_S64x144_S64x64_0_0)
        (extractStridedSlice S64x64 ![0, 64] a5 slices_S64x144_S64x64_0_64)
        (extractStridedSlice S64x16 ![0, 128] a5 slices_S64x144_S64x16_0_128)
        (shapeCast S1x64 a6 shapeCasts_S64_S1x64)
      = Cert.Spec.msg h a1 a2 a5 a6 := by
  funext j
  obtain ⟨e, c, rfl⟩ : ∃ (e : Fin 800000) (c : Fin 64), j = ix2 e c := ⟨j 0, j 1, eq_ix2 j⟩
  have hs := hr (ix2 (0 : Fin 2) e)
  have hd := hr (ix2 (1 : Fin 2) e)
  have es : ∀ k : Fin 64, KHost.takeK (F := Ideal) h (KHost.srcK a1) (ix2 e k)
      = h (ix2 (Cert.Spec.row (a1 (ix2 (0 : Fin 2) e))) k) := fun k => by
    rw [takeK_apply h (KHost.srcK a1) e k (by rw [srcK_apply]; exact hs.1) (by rw [srcK_apply]; exact hs.2),
      srcK_apply]
  have ed : ∀ k : Fin 64, KHost.takeK (F := Ideal) h (KHost.dstK a1) (ix2 e k)
      = h (ix2 (Cert.Spec.row (a1 (ix2 (1 : Fin 2) e))) k) := fun k => by
    rw [takeK_apply h (KHost.dstK a1) e k (by rw [dstK_apply]; exact hd.1) (by rw [dstK_apply]; exact hd.2),
      dstK_apply]
  have w0 : ∀ k : Fin 64, extractStridedSlice S64x64 ![0, 0] a5 slices_S64x144_S64x64_0_0 (ix2 c k)
      = a5 (ix2 c (⟨k.val, by omega⟩ : Fin 144)) := fun k =>
    slice2_axis1_apply 0 a5 _ c k ⟨k.val, by omega⟩ (Nat.zero_add _).symm
  have w1 : ∀ k : Fin 64, extractStridedSlice S64x64 ![0, 64] a5 slices_S64x144_S64x64_0_64 (ix2 c k)
      = a5 (ix2 c (⟨64 + k.val, by omega⟩ : Fin 144)) := fun k =>
    slice2_axis1_apply 64 a5 _ c k ⟨64 + k.val, by omega⟩ rfl
  have w2 : ∀ k : Fin 16, extractStridedSlice S64x16 ![0, 128] a5 slices_S64x144_S64x16_0_128 (ix2 c k)
      = a5 (ix2 c (⟨128 + k.val, by omega⟩ : Fin 144)) := fun k =>
    slice2_axis1_apply 128 a5 _ c k ⟨128 + k.val, by omega⟩ rfl
  have hb : shapeCast S1x64 a6 shapeCasts_S64_S1x64 (ix2 (0 : Fin 1) c) = a6 (ix1 c) :=
    shapeCast_a_1a_apply a6 _ 0 c
  show KHost.takeK (F := Ideal) h (KHost.dstK a1) (ix2 e c)
      * Cert.Spec.lrelu
        ((((∑ k : Fin 64, KHost.takeK (F := Ideal) h (KHost.srcK a1) (ix2 e k)
              * extractStridedSlice S64x64 ![0, 0] a5 slices_S64x144_S64x64_0_0 (ix2 c k))
            + (∑ k : Fin 64, KHost.takeK (F := Ideal) h (KHost.dstK a1) (ix2 e k)
              * extractStridedSlice S64x64 ![0, 64] a5 slices_S64x144_S64x64_0_64 (ix2 c k)))
            + (∑ k : Fin 16, a2 (ix2 e k) * extractStridedSlice S64x16 ![0, 128] a5 slices_S64x144_S64x16_0_128 (ix2 c k)))
          + shapeCast S1x64 a6 shapeCasts_S64_S1x64 (ix2 (0 : Fin 1) c))
    = h (ix2 (Cert.Spec.row (a1 (ix2 (1 : Fin 2) e))) c)
      * Cert.Spec.lrelu (Cert.Spec.logit h a2 a5 a6 (Cert.Spec.row (a1 (ix2 (0 : Fin 2) e)))
          (Cert.Spec.row (a1 (ix2 (1 : Fin 2) e))) e c)
  rw [hb]
  simp only [es, ed, w0, w1, w2]
  rfl

end Cert.KernelIdeal.KBridge

end
-- ==== Proof.KValue.lean ====
/-
  The kernel program's result is the scatter-add of the messages `Cert.Spec.msg` over the node table `Cert.Spec.table`.

  The chain of reads (the result buffer back to the launch memory) meets the two regions' values — the first region's
  output array is the node table, the second region's the messages of its operands — and, where every index word names a
  row of the table, the gather with fill is the plain row gather, the three column bands are the bands of the one weight
  matrix, and the two one-row biases are the bias vectors: the operands' messages are the specification's.
-/
import proofs.«122028_j56788057588255_1_alg».proof.Proof.KChain
import proofs.«122028_j56788057588255_1_alg».proof.Proof.KReg0
import proofs.«122028_j56788057588255_1_alg».proof.Proof.KReg1
import proofs.«122028_j56788057588255_1_alg».proof.Proof.KBridge

set_option maxRecDepth 16384

noncomputable section

namespace Cert.KernelIdeal.KValue

open Cert.KernelIdeal Cert.KernelIdeal.Gen Cert.KernelIdeal.KHost Cert.KernelIdeal.KChain
open Idealize.ShloMosaic Idealize.ShloMosaic.TcCoe Idealize.SL.Sem

variable (m : (ℓ : Loc nD τ sig) → Buf (Elt Ideal) ℓ) (ρ : Dev nD → PrngReg) (c : Dev nD)

/-- The first region's output array is the node table of the launched arguments. -/
theorem table_eq : (dat0 (F := Ideal) (V1 m ρ) c).arrAt 3 cfg0.N
    = Cert.Spec.table (m ((c : Thread nD τ).loc main_arg0)) (m ((c : Thread nD τ).loc main_arg3)) (m ((c : Thread nD τ).loc main_arg4)) := by
  rw [KReg0.value (V1 m ρ) c, V1_arg0, V1_arg3, V1_v0, KBridge.tableK_eq]

/-- The second region's output array is the messages over that table, where the index words are in range. -/
theorem msg_eq (hr : Cert.Spec.InRange (m ((c : Thread nD τ).loc main_arg1))) : (dat1 (F := Ideal) (V6 m ρ) c).arrAt 7 cfg1.N
    = Cert.Spec.msg (Cert.Spec.table (m ((c : Thread nD τ).loc main_arg0)) (m ((c : Thread nD τ).loc main_arg3)) (m ((c : Thread nD τ).loc main_arg4)))
        (m ((c : Thread nD τ).loc main_arg1)) (m ((c : Thread nD τ).loc main_arg2)) (m ((c : Thread nD τ).loc main_arg5)) (m ((c : Thread nD τ).loc main_arg6)) := by
  rw [KReg1.value (V6 m ρ) c, V6_v6, V6_v7, V6_arg2, V6_v8, V6_v9, V6_v10, V6_v11, table_eq,
    KBridge.msgK_eq _ _ _ _ _ hr]

/-- The result buffer at the return. -/
theorem out_eq (hr : Cert.Spec.InRange (m ((c : Thread nD τ).loc main_arg1))) : W8 m ρ c (Proc.devRef .tc main_v15)
    = outK (F := Ideal) (srcK (m ((c : Thread nD τ).loc main_arg1)))
        (Cert.Spec.msg (Cert.Spec.table (m ((c : Thread nD τ).loc main_arg0)) (m ((c : Thread nD τ).loc main_arg3)) (m ((c : Thread nD τ).loc main_arg4)))
          (m ((c : Thread nD τ).loc main_arg1)) (m ((c : Thread nD τ).loc main_arg2)) (m ((c : Thread nD τ).loc main_arg5)) (m ((c : Thread nD τ).loc main_arg6))) := by
  rw [W8_v15, msg_eq m ρ c hr]

end Cert.KernelIdeal.KValue

end
-- ==== Proof.RefTerm.lean ====
/-
  The reference program's result as a composition of pure array functions.

  Each definition below is one named stage of the reference: the same array operations, on the same
  operands, in the same order as the lines of the printed program, with the two outlined functions
  (the leaky rectifier and the element-wise choice it ends with) written in place.

    hT     the node table: features times the transposed weights, plus the bias broadcast over rows
    srcT   row 0 of the edge index as a vector of 800000 words
    dstT   row 1 of the edge index as a vector of 800000 words
    wrapT  the index normalisation: a negative word is shifted up by the table's 50000 rows, then
           the vector becomes a one-column matrix of start indices
    takeT  the rows of a table named by a vector of index words
    preT   the gate's affine form: the two gathered row arrays and the edge attributes side by side
           (144 columns), times the transposed gate weights, plus the gate bias broadcast over rows
    leakyT the leaky rectifier, element by element
    msgT   the messages: the second gathered row array times the rectified gate
    out    the messages accumulated into a zero table at the rows the first index row names
-/
import proofs.«122028_j56788057588255_1_alg».proof.ReferenceIdeal
import proofs.«122028_j56788057588255_1_alg».proof.Proof.Gen.ReferenceIdeal

noncomputable section

namespace Cert.ReferenceIdeal.RefTerm

open Idealize.ShloMosaic Idealize.SL.Sem
open Cert.ReferenceIdeal
open Cert.ReferenceIdeal.Facts₀ Cert.ReferenceIdeal.Facts

variable {F : FTy → Type} [FloatOps F]

/-- The node table: `x · Wᵀ + b`, the bias first made a one-row matrix and then repeated over the rows. -/
def hT (a0 : FVec F S50000x128 .f32) (a3 : FVec F S64x128 .f32) (a4 : FVec F S64 .f32) :
    FVec F S50000x64 .f32 :=
  addf
    (Host.dotGeneral dot_S50000x128_S128x64_S50000x64_1_0_0_1_n_n none a0
      (transpose S128x64 [1, 0] a3 transposes_S64x128_S128x64_1_0))
    (broadcastInDim S50000x64 ![0, 1] bcast_S1x64_S50000x64_0_1
      (broadcastInDim S1x64 ![1] bcast_S64_S1x64_1 a4))

/-- Row 0 of the edge index, as a vector. -/
def srcT (a1 : IVec S2x800000 32) : IVec S800000 32 :=
  shapeCast S800000 (extractStridedSlice S1x800000 ![0, 0] a1 slices_S2x800000_S1x800000_0_0)
    shapeCasts_S1x800000_S800000

/-- Row 1 of the edge index, as a vector. -/
def dstT (a1 : IVec S2x800000 32) : IVec S800000 32 :=
  shapeCast S800000 (extractStridedSlice S1x800000 ![1, 0] a1 slices_S2x800000_S1x800000_1_0)
    shapeCasts_S1x800000_S800000

/-- The index normalisation: where a word is negative it is replaced by the word plus 50000; the vector is
    then laid out as a one-column matrix of start indices. -/
def wrapT (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32)))
      v)

/-- The rows of the table `h` named by the index words `v`, one row per word. -/
def takeT (h : FVec F S50000x64 .f32) (v : IVec S800000 32) : FVec F S800000x64 .f32 :=
  Host.gather gather_S50000x64_S800000x1_S800000x64_1_0_n_n_0_1_164 h (wrapT v)

/-- The gate's affine form: `[hi | hj | a2] · a5ᵀ + a6`, the bias first made a one-row matrix and then
    repeated over the rows. -/
def preT (hi hj : FVec F S800000x64 .f32) (a2 : FVec F S800000x16 .f32) (a5 : FVec F S64x144 .f32)
    (a6 : FVec F S64 .f32) : FVec F S800000x64 .f32 :=
  addf
    (Host.dotGeneral dot_S800000x144_S144x64_S800000x64_1_0_0_1_n_n none
      (concatenate S800000x144 1 [⟨S800000x64, hi⟩, ⟨S800000x64, hj⟩, ⟨S800000x16, a2⟩]
        concatenates_S800000x64_S800000x64_S800000x16_S800000x144_d1)
      (transpose S144x64 [1, 0] a5 transposes_S64x144_S144x64_1_0))
    (broadcastInDim S800000x64 ![0, 1] bcast_S1x64_S800000x64_0_1
      (broadcastInDim S1x64 ![1] bcast_S64_S1x64_1 a6))

/-- The leaky rectifier: `x` where `x ≥ 0`, else the slope constant times `x`. -/
def leakyT (x : FVec F S800000x64 .f32) : FVec F S800000x64 .f32 :=
  select
    (cmpf .oge x (broadcastInDim S800000x64 ![] bcast_S_S800000x64 (constant S_ .f32 0x00000000#32)))
    x
    (mulf (broadcastInDim S800000x64 ![] bcast_S_S800000x64 (id (constant S_ .f32 0x3E4CCCCD#32))) x)

/-- The messages: the rows the second index row names, times the rectified gate. -/
def msgT (a0 : FVec F S50000x128 .f32) (a1 : IVec S2x800000 32) (a2 : FVec F S800000x16 .f32)
    (a3 : FVec F S64x128 .f32) (a4 : FVec F S64 .f32) (a5 : FVec F S64x144 .f32) (a6 : FVec F S64 .f32) :
    FVec F S800000x64 .f32 :=
  mulf (takeT (hT a0 a3 a4) (dstT a1))
    (leakyT (preT (takeT (hT a0 a3 a4) (srcT a1)) (takeT (hT a0 a3 a4) (dstT a1)) a2 a5 a6))

/-- The result: the messages added into a zero table at the rows the first index row names. -/
def out (a0 : FVec F S50000x128 .f32) (a1 : IVec S2x800000 32) (a2 : FVec F S800000x16 .f32)
    (a3 : FVec F S64x128 .f32) (a4 : FVec F S64 .f32) (a5 : FVec F S64x144 .f32) (a6 : FVec F S64 .f32) :
    FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (srcT a1))
    (msgT a0 a1 a2 a3 a4 a5 a6)

end Cert.ReferenceIdeal.RefTerm

end
-- ==== Proof.RefRun.lean ====
/-
  The reference program's run. Its entry function is a straight line of forty-six array operations:
  the node table h = x · Wᵀ + b; the two rows of the edge index, each with its negative words wrapped
  by the table's height and then used to gather rows of h; the 144 columns [h_src | h_dst | e] times
  Wₑᵀ plus the bias; the leaky rectifier of that (the callee's operations written out at the call,
  over the call's own buffers); the product with h_dst; and the sum of those rows into a zero table
  at the first row's words. Written as a list, the function IS the list run in order, so every weakly
  fair execution ends with each buffer at the fold of the operations' results over the launch
  contents. Reading that fold at the result buffer gives the composed term of the seven arguments,
  and at an argument buffer gives the argument back, since no operation writes an argument.
-/
import proofs.«122028_j56788057588255_1_alg».proof.ReferenceIdeal
import proofs.«122028_j56788057588255_1_alg».proof.Proof.Gen.ReferenceIdeal
import proofs.«122028_j56788057588255_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's forty-six operations, in order. The rectifier's seven (a zero, its broadcast,
    the test x ≥ 0, the slope's copy and broadcast, slope · x, the choice) stand where the call stands. -/
abbrev ops : List (HloOp τ sig (Elt F)) :=
  [ unary main_arg3 main_v0 ((transpose S128x64 [1, 0] · transposes_S64x128_S128x64_1_0) : (⟨S64x128, .f32⟩ : BufTy).Contents (Elt F) → (⟨S128x64, .f32⟩ : BufTy).Contents (Elt F)),
    binary main_arg0 main_v0 main_v1 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v2 (broadcastInDim S1x64 ![1] bcast_S64_S1x64_1 : (⟨S64, .f32⟩ : BufTy).Contents (Elt F) → (⟨S1x64, .f32⟩ : BufTy).Contents (Elt F)),
    unary main_v2 main_v3 (broadcastInDim S50000x64 ![0, 1] bcast_S1x64_S50000x64_0_1 : (⟨S1x64, .f32⟩ : BufTy).Contents (Elt F) → (⟨S50000x64, .f32⟩ : BufTy).Contents (Elt F)),
    binary main_v1 main_v3 main_v4 (addf : (⟨S50000x64, .f32⟩ : BufTy).Contents (Elt F) → (⟨S50000x64, .f32⟩ : BufTy).Contents (Elt F) → (⟨S50000x64, .f32⟩ : BufTy).Contents (Elt F)),
    unary main_arg1 main_v5 ((extractStridedSlice S1x800000 ![0, 0] · slices_S2x800000_S1x800000_0_0) : (⟨S2x800000, .i32⟩ : BufTy).Contents (Elt F) → (⟨S1x800000, .i32⟩ : BufTy).Contents (Elt F)),
    reshape main_v5 main_v6 rfl shapeCasts_S1x800000_S800000,
    unary main_arg1 main_v7 ((extractStridedSlice S1x800000 ![1, 0] · slices_S2x800000_S1x800000_1_0) : (⟨S2x800000, .i32⟩ : BufTy).Contents (Elt F) → (⟨S1x800000, .i32⟩ : BufTy).Contents (Elt F)),
    reshape main_v7 main_v8 rfl shapeCasts_S1x800000_S800000,
    nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_v6 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v11 (broadcastInDim S800000 ![] bcast_S_S800000 : (⟨S_, .i32⟩ : BufTy).Contents (Elt F) → (⟨S800000, .i32⟩ : BufTy).Contents (Elt F)),
    binary main_v6 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_v6 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v4 main_v14 main_v15 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v16 (broadcastInDim S800000 ![] bcast_S_S800000 : (⟨S_, .i32⟩ : BufTy).Contents (Elt F) → (⟨S800000, .i32⟩ : BufTy).Contents (Elt F)),
    binary main_v8 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_v8 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v8 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v4 main_v21 main_v22 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nary ![main_v15, main_v22, main_arg2] main_v23 (fun u => concatenate S800000x144 1 [⟨S800000x64, u 0⟩, ⟨S800000x64, u 1⟩, ⟨S800000x16, u 2⟩] concatenates_S800000x64_S800000x64_S800000x16_S800000x144_d1),
    unary main_arg5 main_v24 ((transpose S144x64 [1, 0] · transposes_S64x144_S144x64_1_0) : (⟨S64x144, .f32⟩ : BufTy).Contents (Elt F) → (⟨S144x64, .f32⟩ : BufTy).Contents (Elt F)),
    binary main_v23 main_v24 main_v25 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    unary main_arg6 main_v26 (broadcastInDim S1x64 ![1] bcast_S64_S1x64_1 : (⟨S64, .f32⟩ : BufTy).Contents (Elt F) → (⟨S1x64, .f32⟩ : BufTy).Contents (Elt F)),
    unary main_v26 main_v27 (broadcastInDim S800000x64 ![0, 1] bcast_S1x64_S800000x64_0_1 : (⟨S1x64, .f32⟩ : BufTy).Contents (Elt F) → (⟨S800000x64, .f32⟩ : BufTy).Contents (Elt F)),
    binary main_v25 main_v27 main_v28 (addf : (⟨S800000x64, .f32⟩ : BufTy).Contents (Elt F) → (⟨S800000x64, .f32⟩ : BufTy).Contents (Elt F) → (⟨S800000x64, .f32⟩ : BufTy).Contents (Elt F)),
    nullary main_cst (constant S_ .f32 0x3E4CCCCD#32),
    TRef.nullary main_call0.cst (constant S_ .f32 0x00000000#32),
    TRef.unary main_call0.cst main_call0.v0 (broadcastInDim S800000x64 ![] bcast_S_S800000x64),
    TRef.binary (.of main_v28) main_call0.v0 main_call0.v1 (cmpf .oge),
    TRef.unary (.of main_cst) main_call0.v2 id,
    TRef.unary main_call0.v2 main_call0.v3 (broadcastInDim S800000x64 ![] bcast_S_S800000x64),
    TRef.binary main_call0.v3 (.of main_v28) main_call0.v4 mulf,
    TRef.ternary main_call0.v1 (.of main_v28) main_call0.v4 main_call0.call0.v0 select,
    binary main_v22 main_v29 main_v30 (mulf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x00000000#32),
    unary main_cst_3 main_v31 (broadcastInDim S50000x64 ![] bcast_S_S50000x64 : (⟨S_, .f32⟩ : BufTy).Contents (Elt F) → (⟨S50000x64, .f32⟩ : BufTy).Contents (Elt F)),
    unary main_v6 main_v32 (broadcastInDim S800000x1 ![0] bcast_S800000_S800000x1_0 : (⟨S800000, .i32⟩ : BufTy).Contents (Elt F) → (⟨S800000x1, .i32⟩ : BufTy).Contents (Elt F)),
    ternary main_v31 main_v32 main_v30 main_v33 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

set_option maxRecDepth 1024 in
/-- The entry function is that list run in order: with the two callees' bodies put in place of their
    calls, both sides are one chain of single steps once the sequencing is reassociated. -/
theorem main_eq (c : Dev nD) : main (F := F) c = seq ops := by
  simp only [main, fn_leaky_relu.body, fn_where.body, seq, bind_assoc, pure_bind]

/-- No buffer of this program is scoped. -/
theorem scopedRefs_eq : (Finset.univ.filter fun b : Ref sig .tc => b.isScoped) = ∅ := by decide
/-- It has no semaphore, so none is scoped. -/
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nary_bufs_sub .., unary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    nullary_bufs_sub .., unary_bufs_sub .., unary_bufs_sub .., ternary_bufs_sub ..⟩

/-- From any memory with every counter zero, every weakly fair execution ends, and leaves each buffer
    at the fold of the forty-six results over what the memory held at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the arguments

No operation writes an argument buffer, so the fold leaves each as it was. The gather, the scatter-add,
and the concatenation are kept closed while the equation is decided: it never looks inside them. -/

attribute [local irreducible] Host.gather Host.scatterAdd concatenate

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

/-! ## The concatenation's result

The one operation of three operands reads them through a family indexed by 0, 1, 2. Its result is the
three buffers' contents side by side, each read at its own buffer: the family applied at a literal index
is the buffer standing there. The side-by-side array is named as a function of the three pieces. -/

/-- Three arrays of 64, 64 and 16 columns side by side: 144 columns. -/
def cat3 (p q : FVec F S800000x64 .f32) (r : FVec F S800000x16 .f32) : FVec F S800000x144 .f32 :=
  concatenate S800000x144 1 [⟨S800000x64, p⟩, ⟨S800000x64, q⟩, ⟨S800000x16, r⟩]
    concatenates_S800000x64_S800000x64_S800000x16_S800000x144_d1

theorem concat_result (hxs hy) (G : Valuation τ sig (Elt F)) :
    (nary (τ := τ) ![main_v15, main_v22, main_arg2] main_v23
        (fun u => concatenate S800000x144 1 [⟨S800000x64, u 0⟩, ⟨S800000x64, u 1⟩, ⟨S800000x16, u 2⟩]
          concatenates_S800000x64_S800000x64_S800000x16_S800000x144_d1) hxs hy).result G
        (no_index (Proc.devRef .tc main_v23))
      = cat3 (G (Proc.devRef .tc main_v15)) (G (Proc.devRef .tc main_v22)) (G (Proc.devRef .tc main_arg2)) :=
  nary_result _ _ _ hxs hy G

/-! ## The fold at the result

Each buffer the result is computed from is read as the function of the operation that wrote it, and so on
down to the seven arguments, which no operation writes: the fold at the result buffer is one composed term
of the arguments. That term is the stage-by-stage term: the same operations on the same operands, the
call's typed buffers carrying their contents unchanged. -/

set_option maxHeartbeats 400000 in
theorem out_eq (V : Valuation τ sig (Elt F)) :
    after ops V (main_v33 : DevRef τ sig)
      = RefTerm.out (V (main_arg0 : DevRef τ sig))
          (V (main_arg1 : DevRef τ sig))
          (V (main_arg2 : DevRef τ sig))
          (V (main_arg3 : DevRef τ sig))
          (V (main_arg4 : DevRef τ sig))
          (V (main_arg5 : DevRef τ sig))
          (V (main_arg6 : DevRef τ sig)) := by
  simp (disch := decide) only [after_cons, after_nil,
    nullary_result', unary_result', binary_result', ternary_result', reshape_result', concat_result,
    nullary_result_ne', unary_result_ne', binary_result_ne', ternary_result_ne', reshape_result_ne', nary_result_ne']
  rfl

/-- From any memory with every counter zero, every weakly fair execution ends with the result buffer at
    the composed term of the seven arguments as the memory held them at launch, and with the seven
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
        = RefTerm.out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v33).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_main m ρ)

end Cert.ReferenceIdeal.RefRun

end
-- ==== Proof.RefValue.lean ====
/-
  The reference's stages, read index by index over the extended reals.

  The node table stage is the affine map of the specification: entry (n, c) of `x · Wᵀ + b` is
  `(∑ k, x[n, k] · W[c, k]) + b[c]`.  The message stage, on index words that name rows of the table, is the
  specification's message: the index normalisation leaves such a word unchanged, the row gather then reads the
  row the word names, the 144-column contraction over `[hi | hj | ea]` splits into its three bands of 64, 64 and
  16 columns, and the rectifier is applied element by element.
-/
import proofs.«122028_j56788057588255_1_alg».proof.Proof.RefTerm
import proofs.«122028_j56788057588255_1_alg».proof.Proof.Spec
import Idealize.ShloMosaic.Lib.ValueLayout
import Idealize.ShloMosaic.Lib.StackMember
import proofs.«122028_j56788057588255_1_alg».proof.Proof.LibIndexWords

noncomputable section

open scoped BigOperators

namespace Cert.ReferenceIdeal.RefValue

open Idealize.ShloMosaic Idealize.ShloMosaic.ValueIdx
open Cert.ReferenceIdeal

/-! ## The two matrix products are plain products -/

/-- The table product's dimension numbers are those of a plain 50000×128 by 128×64 product. -/
theorem dotTable_eq : dot_S50000x128_S128x64_S50000x64_1_0_0_1_n_n = DotDims.plain 50000 128 64 := rfl

/-- The gate product's dimension numbers are those of a plain 800000×144 by 144×64 product. -/
theorem dotGate_eq : dot_S800000x144_S144x64_S800000x64_1_0_0_1_n_n = DotDims.plain 800000 144 64 := rfl

/-! ## The bias broadcasts at an index -/

/-- A bias vector made a one-row matrix: entry (0, c) is `b[c]`. -/
theorem biasRow_apply {α : Type} (b : S64.Idx → α) (h : S64.BroadcastsInDim S1x64 (![1] : Fin 1 → Fin S1x64.rank))
    (c : Fin 64) : broadcastInDim S1x64 ![1] h b (ix2 (0 : Fin 1) c) = b (ix1 c) :=
  broadcastInDim_apply ![1] h b (ix2 (0 : Fin 1) c) (ix1 c) fun a => by
    match a with
    | ⟨0, _⟩ => rfl

/-- The one-row bias matrix repeated over the table's rows: entry (n, c) is the row's entry c. -/
theorem biasTable_apply {α : Type} (r : S1x64.Idx → α)
    (h : S1x64.BroadcastsInDim S50000x64 (![0, 1] : Fin 2 → Fin S50000x64.rank)) (n : Fin 50000) (c : Fin 64) :
    broadcastInDim S50000x64 ![0, 1] h r (ix2 n c) = r (ix2 (0 : Fin 1) c) :=
  broadcastInDim_apply ![0, 1] h r (ix2 n c) (ix2 (0 : Fin 1) c) fun a => by
    match a with
    | ⟨0, _⟩ => rfl
    | ⟨1, _⟩ => rfl

/-- The one-row bias matrix repeated over the edges: entry (e, c) is the row's entry c. -/
theorem biasEdges_apply {α : Type} (r : S1x64.Idx → α)
    (h : S1x64.BroadcastsInDim S800000x64 (![0, 1] : Fin 2 → Fin S800000x64.rank)) (e : Fin 800000) (c : Fin 64) :
    broadcastInDim S800000x64 ![0, 1] h r (ix2 e c) = r (ix2 (0 : Fin 1) c) :=
  broadcastInDim_apply ![0, 1] h r (ix2 e c) (ix2 (0 : Fin 1) c) fun a => by
    match a with
    | ⟨0, _⟩ => rfl
    | ⟨1, _⟩ => rfl

/-! ## The node table -/

/-- The node table stage is the specification's table. -/
theorem hT_eq (a0 : FVec Ideal S50000x128 .f32) (a3 : FVec Ideal S64x128 .f32) (a4 : FVec Ideal S64 .f32) :
    RefTerm.hT (F := Ideal) a0 a3 a4 = Cert.Spec.table a0 a3 a4 := by
  funext j
  obtain ⟨n, c, rfl⟩ : ∃ (n : Fin 50000) (c : Fin 64), j = ix2 n c := ⟨j 0, j 1, eq_ix2 j⟩
  unfold RefTerm.hT
  rw [addf_apply, dotTable_eq, StackMember.dotGeneral_plain_apply, biasTable_apply, biasRow_apply]
  show _ = (∑ k : Fin 128, a0 (ix2 n k) * a3 (ix2 c k)) + a4 (ix1 c)
  refine congrArg (· + a4 (ix1 c)) (Finset.sum_congr rfl fun k _ => ?_)
  rw [transpose_ix2_apply]

/-! ## The two rows of the edge index -/

/-- Entry `e` of the first index vector is `idx[0, e]`. -/
theorem srcT_apply (a1 : IVec S2x800000 32) (e : Fin 800000) :
    RefTerm.srcT a1 (ix1 e) = a1 (ix2 (0 : Fin 2) e) := by
  unfold RefTerm.srcT
  rw [shapeCast_1a_a_apply]
  exact slice2_axis0_apply 0 a1 _ (0 : Fin 1) e (0 : Fin 2) rfl

/-- Entry `e` of the second index vector is `idx[1, e]`. -/
theorem dstT_apply (a1 : IVec S2x800000 32) (e : Fin 800000) :
    RefTerm.dstT a1 (ix1 e) = a1 (ix2 (1 : Fin 2) e) := by
  unfold RefTerm.dstT
  rw [shapeCast_1a_a_apply]
  exact slice2_axis0_apply 1 a1 _ (0 : Fin 1) e (1 : Fin 2) rfl

/-! ## The rectifier -/

/-- The rectifier stage applies the specification's leaky rectifier to every element. -/
theorem leakyT_apply (x : FVec Ideal S800000x64 .f32) (j : S800000x64.Idx) :
    RefTerm.leakyT x j = Cert.Spec.lrelu (x j) := rfl

/-! ## The 144 columns `[hi | hj | ea]` band by band -/

section Bands
variable {α : Type} (hi hj : S800000x64.Idx → α) (ea : S800000x16.Idx → α)
  (h : Shape.Concatenates [S800000x64, S800000x64, S800000x16] S800000x144 1)

/-- Columns 0 … 63 of the concatenation are the first piece. -/
theorem concat_band0 (e : Fin 800000) (k : Fin 64) :
    concatenate S800000x144 1 [⟨S800000x64, hi⟩, ⟨S800000x64, hj⟩, ⟨S800000x16, ea⟩] h
      (ix2 e (⟨k.val, by omega⟩ : Fin 144)) = hi (ix2 e k) :=
  concatenate_apply_piece (1 : Fin S800000x144.rank) [⟨S800000x64, hi⟩, ⟨S800000x64, hj⟩, ⟨S800000x16, ea⟩] h _ 0
    (by show (0 : Nat) < 3; omega) S800000x64 hi rfl rfl 0 rfl (ix2 e k)
    (fun b hb => by
      match b with
      | ⟨0, _⟩ => rfl
      | ⟨1, _⟩ => exact absurd rfl hb) (Nat.zero_add _)

/-- Columns 64 … 127 of the concatenation are the second piece. -/
theorem concat_band1 (e : Fin 800000) (k : Fin 64) :
    concatenate S800000x144 1 [⟨S800000x64, hi⟩, ⟨S800000x64, hj⟩, ⟨S800000x16, ea⟩] h
      (ix2 e (⟨64 + k.val, by omega⟩ : Fin 144)) = hj (ix2 e k) :=
  concatenate_apply_piece (1 : Fin S800000x144.rank) [⟨S800000x64, hi⟩, ⟨S800000x64, hj⟩, ⟨S800000x16, ea⟩] h _ 1
    (by show (1 : Nat) < 3; omega) S800000x64 hj rfl rfl 64 rfl (ix2 e k)
    (fun b hb => by
      match b with
      | ⟨0, _⟩ => rfl
      | ⟨1, _⟩ => exact absurd rfl hb) rfl

/-- Columns 128 … 143 of the concatenation are the third piece. -/
theorem concat_band2 (e : Fin 800000) (k : Fin 16) :
    concatenate S800000x144 1 [⟨S800000x64, hi⟩, ⟨S800000x64, hj⟩, ⟨S800000x16, ea⟩] h
      (ix2 e (⟨128 + k.val, by omega⟩ : Fin 144)) = ea (ix2 e k) :=
  concatenate_apply_piece (1 : Fin S800000x144.rank) [⟨S800000x64, hi⟩, ⟨S800000x64, hj⟩, ⟨S800000x16, ea⟩] h _ 2
    (by show (2 : Nat) < 3; omega) S800000x16 ea rfl rfl 128 rfl (ix2 e k)
    (fun b hb => by
      match b with
      | ⟨0, _⟩ => rfl
      | ⟨1, _⟩ => exact absurd rfl hb) rfl

end Bands

/-- A sum over 144 terms is the sum of its three consecutive bands of 64, 64 and 16 terms. -/
theorem sum_bands {M : Type*} [AddCommMonoid M] (f : Fin 144 → M) :
    ∑ k, f k = ((∑ k : Fin 64, f ⟨k.val, by omega⟩) + (∑ k : Fin 64, f ⟨64 + k.val, by omega⟩))
      + (∑ k : Fin 16, f ⟨128 + k.val, by omega⟩) := by
  have h1 := Fin.sum_univ_add (a := 128) (b := 16) f
  have h2 := Fin.sum_univ_add (a := 64) (b := 64) fun i : Fin 128 => f (Fin.castAdd 16 i)
  rw [h1, h2]
  rfl

/-! ## The gate's affine form -/

/-- The gate's affine form at edge `e`, column `c`: three partial sums over the column bands of the weights, then
    the bias. -/
theorem preT_apply (hi hj : FVec Ideal S800000x64 .f32) (a2 : FVec Ideal S800000x16 .f32)
    (a5 : FVec Ideal S64x144 .f32) (a6 : FVec Ideal S64 .f32) (e : Fin 800000) (c : Fin 64) :
    RefTerm.preT hi hj a2 a5 a6 (ix2 e c)
      = (((∑ k : Fin 64, hi (ix2 e k) * a5 (ix2 c (⟨k.val, by omega⟩ : Fin 144)))
          + (∑ k : Fin 64, hj (ix2 e k) * a5 (ix2 c (⟨64 + k.val, by omega⟩ : Fin 144))))
          + (∑ k : Fin 16, a2 (ix2 e k) * a5 (ix2 c (⟨128 + k.val, by omega⟩ : Fin 144))))
        + a6 (ix1 c) := by
  unfold RefTerm.preT
  rw [addf_apply, dotGate_eq, StackMember.dotGeneral_plain_apply, biasEdges_apply, biasRow_apply, sum_bands]
  refine congrArg (· + a6 (ix1 c)) (congrArg₂ (· + ·) (congrArg₂ (· + ·) ?_ ?_) ?_)
  · exact Finset.sum_congr rfl fun k _ => by rw [concat_band0, transpose_ix2_apply]
  · exact Finset.sum_congr rfl fun k _ => by rw [concat_band1, transpose_ix2_apply]
  · exact Finset.sum_congr rfl fun k _ => by rw [concat_band2, transpose_ix2_apply]

/-! ## The index normalisation and the row gather -/

/-- On a non-negative index word the normalisation changes nothing: the start index of edge `e` is the word. -/
theorem wrapT_apply (v : IVec S800000 32) (e : Fin 800000) (h0 : 0 ≤ (v (ix1 e)).toInt) :
    RefTerm.wrapT v (ix2 e (0 : Fin 1)) = v (ix1 e) := by
  unfold RefTerm.wrapT
  rw [broadcastInDim_apply ![0] _ _ (ix2 e (0 : Fin 1)) (ix1 e) fun a => by
    match a with
    | ⟨0, _⟩ => rfl]
  exact Cert.LibIndexWords.wrap_eq (v (ix1 e)) h0

/-- The gathered row of edge `e` is the table row its index word names, when the word lies in `[0, 50000)`. -/
theorem takeT_apply (h : FVec Ideal S50000x64 .f32) (v : IVec S800000 32) (e : Fin 800000) (c : Fin 64)
    (h0 : 0 ≤ (v (ix1 e)).toInt) (h1 : (v (ix1 e)).toInt < 50000) :
    RefTerm.takeT h v (ix2 e c) = h (ix2 (Cert.Spec.row (v (ix1 e))) c) := by
  unfold RefTerm.takeT
  have hw := wrapT_apply v e h0
  have hg := Cert.LibIndexWords.gather_rows_apply
    Facts₀.gather_S50000x64_S800000x1_S800000x64_1_0_n_n_0_1_164_wf h (RefTerm.wrapT v) e c
    (by rw [hw]; exact h0) (by rw [hw]; exact h1)
  rw [hw] at hg
  exact hg

/-! ## The messages -/

/-- The message stage over any table `h`: on index words in range it is the specification's message. -/
theorem msg_of_table (h : FVec Ideal S50000x64 .f32) (a1 : IVec S2x800000 32) (a2 : FVec Ideal S800000x16 .f32)
    (a5 : FVec Ideal S64x144 .f32) (a6 : FVec Ideal S64 .f32) (hr : Cert.Spec.InRange a1) :
    mulf (RefTerm.takeT h (RefTerm.dstT a1))
        (RefTerm.leakyT (RefTerm.preT (RefTerm.takeT h (RefTerm.srcT a1)) (RefTerm.takeT h (RefTerm.dstT a1)) a2 a5 a6))
      = Cert.Spec.msg h a1 a2 a5 a6 := by
  funext j
  obtain ⟨e, c, rfl⟩ : ∃ (e : Fin 800000) (c : Fin 64), j = ix2 e c := ⟨j 0, j 1, eq_ix2 j⟩
  have hs := hr (ix2 (0 : Fin 2) e)
  have hd := hr (ix2 (1 : Fin 2) e)
  have es : ∀ k : Fin 64, RefTerm.takeT h (RefTerm.srcT a1) (ix2 e k)
      = h (ix2 (Cert.Spec.row (a1 (ix2 (0 : Fin 2) e))) k) := fun k => by
    rw [takeT_apply h (RefTerm.srcT a1) e k (by rw [srcT_apply]; exact hs.1) (by rw [srcT_apply]; exact hs.2),
      srcT_apply]
  have ed : ∀ k : Fin 64, RefTerm.takeT h (RefTerm.dstT a1) (ix2 e k)
      = h (ix2 (Cert.Spec.row (a1 (ix2 (1 : Fin 2) e))) k) := fun k => by
    rw [takeT_apply h (RefTerm.dstT a1) e k (by rw [dstT_apply]; exact hd.1) (by rw [dstT_apply]; exact hd.2),
      dstT_apply]
  rw [mulf_apply, leakyT_apply, preT_apply, ed c]
  simp only [es, ed]
  rfl

/-- The message stage of the reference is the specification's message over the specification's table. -/
theorem msgT_eq (a0 : FVec Ideal S50000x128 .f32) (a1 : IVec S2x800000 32) (a2 : FVec Ideal S800000x16 .f32)
    (a3 : FVec Ideal S64x128 .f32) (a4 : FVec Ideal S64 .f32) (a5 : FVec Ideal S64x144 .f32)
    (a6 : FVec Ideal S64 .f32) (hr : Cert.Spec.InRange a1) :
    RefTerm.msgT (F := Ideal) a0 a1 a2 a3 a4 a5 a6 = Cert.Spec.msg (Cert.Spec.table a0 a3 a4) a1 a2 a5 a6 := by
  unfold RefTerm.msgT
  rw [hT_eq]
  exact msg_of_table (Cert.Spec.table a0 a3 a4) a1 a2 a5 a6 hr

end Cert.ReferenceIdeal.RefValue

end
-- ==== Proof.PreRange.lean ====
/-
  The precondition's last conjunct, decoded.

  The precondition is a conjunction of "every element passes a test" statements, one per argument array, folded
  left to right by `and`.  Its outermost right-hand conjunct speaks of the edge index alone: at every one of its
  `2 · 800000` positions the word `v` passes `0 ≤ v` and `v < 50000`, both read as signed integers.  That is
  exactly `Cert.Spec.InRange`.  The conjuncts about the float arrays are never opened.
-/
import proofs.«122028_j56788057588255_1_alg».proof.Pre_finite_inputs
import proofs.«122028_j56788057588255_1_alg».proof.Proof.Gen.Pre_finite_inputs
import proofs.«122028_j56788057588255_1_alg».proof.Proof.Spec
import Idealize.ShloMosaic.Lib.ReduceAll

namespace Cert.PreRange

open Idealize.ShloMosaic Idealize.ShloMosaic.ValueIdx

/-- The scalar shape has a single index. -/
instance subsingleton_scalar_idx : Subsingleton Cert.Pre_finite_inputs.S_.Idx := ⟨fun a b => funext fun d => d.elim0⟩

/-- If the precondition answers `1`, every word of the edge index lies in `[0, 50000)` as a signed integer. -/
theorem inRange_of_fn {F : FTy → Type} [FloatOps F] (a0 : FVec F Cert.Pre_finite_inputs.S50000x128 .f32) (a1 : IVec Cert.Pre_finite_inputs.S2x800000 32)
    (a2 : FVec F Cert.Pre_finite_inputs.S800000x16 .f32) (a3 : FVec F Cert.Pre_finite_inputs.S64x128 .f32) (a4 : FVec F Cert.Pre_finite_inputs.S64 .f32)
    (a5 : FVec F Cert.Pre_finite_inputs.S64x144 .f32) (a6 : FVec F Cert.Pre_finite_inputs.S64 .f32)
    (h : Cert.Pre_finite_inputs.fn (F := F) a0 a1 a2 a3 a4 a5 a6 = fun _ => 1#1) : Cert.Spec.InRange a1 := by
  have e := congrFun h ix0
  dsimp only [Cert.Pre_finite_inputs.fn, Cert.Pre_finite_inputs.fn_part1, Cert.Pre_finite_inputs.fn_part2] at e
  -- the outermost `and`: keep its right-hand side, the "all" over the edge index
  have e2 := (IntOp.andi_eq_one.1 e).2
  intro i
  -- every element under the "all" is `1`
  have hi := Host.reduce_andi_all _ _ _ _ ix0 e2 i
  obtain ⟨hge, hlt⟩ := IntOp.andi_eq_one.1 hi
  -- the two broadcast constants read `0` and `50000` at every position
  have c0 : (0#32 : BitVec 32).toInt = 0 := by decide
  have c1 : (50000#32 : BitVec 32).toInt = 50000 := by decide
  have hge' : (0#32 : BitVec 32).toInt ≤ (a1 i).toInt := IntOp.cmpi_sge.1 hge
  have hlt' : (a1 i).toInt < (50000#32 : BitVec 32).toInt := IntOp.cmpi_slt.1 hlt
  rw [c0] at hge'
  rw [c1] at hlt'
  exact ⟨hge', hlt'⟩

end Cert.PreRange
-- ==== Proof.lean ====
/-
  An edge-gated message-passing layer, computed two ways, is one function of its inputs over the extended reals.

  Both programs first form the node table `h[n, c] = (∑ k, x[n, k] · W[c, k]) + b[c]` (50000 rows, 64 columns).  Every one of
  the 800000 edges names two rows of it; the edge's message is its neighbour's row scaled, column by column, by the leaky
  rectifier of an affine form of the two rows and the edge's sixteen attributes; the result adds each message into the row
  the edge's first index names.  One program computes the table and the messages in two tiled kernels (row blocks of 5000
  nodes, then of 3200 edges), contracting against the three column bands of the weight matrix separately and adding the
  three partial sums; the other contracts once against the concatenation of the two gathered rows and the attributes.
  Over the extended reals addition is commutative and associative, so the one sum over 144 columns is the three partial
  sums added; a change of float format is the identity; and the final scatter-add is the same operation of equal operands.

  The two programs differ in how they gather a row for an index word outside `[0, 50000)` (one fills with a NaN word, the
  other clamps), so the claim is stated, and holds, where every index word names a row: the precondition's last conjunct.
  Nothing else of the precondition is used: no step needs the float inputs finite.

  Modules: `Spec` (the mathematics), `KRun` / `KKeep` / `KHost` / `KChain` (the kernel program's run and its host
  stretches read back to the launch memory), `KReg0` / `KReg1` (the two regions' output arrays), `KBridge` / `KValue` (the
  kernel program's result is the specification's), `RefTerm` / `RefRun` / `RefValue` (the same for the reference),
  `LibIndexWords` / `PreRange` (index words in range, and that the precondition says so).
-/
import proofs.«122028_j56788057588255_1_alg».proof.Defs
import proofs.«122028_j56788057588255_1_alg».proof.Proof.Gen.Kernel
import proofs.«122028_j56788057588255_1_alg».proof.Proof.Gen.Kernel.Skeleton
import proofs.«122028_j56788057588255_1_alg».proof.Proof.Gen.Kernel.Launch
import proofs.«122028_j56788057588255_1_alg».proof.Proof.Gen.Kernel.Points
import proofs.«122028_j56788057588255_1_alg».proof.Proof.Gen.Kernel.Frame
import proofs.«122028_j56788057588255_1_alg».proof.Proof.Gen.KernelIdeal
import proofs.«122028_j56788057588255_1_alg».proof.Proof.Gen.KernelIdeal.Skeleton
import proofs.«122028_j56788057588255_1_alg».proof.Proof.Gen.KernelIdeal.Launch
import proofs.«122028_j56788057588255_1_alg».proof.Proof.Gen.KernelIdeal.Points
import proofs.«122028_j56788057588255_1_alg».proof.Proof.Gen.KernelIdeal.Frame
import proofs.«122028_j56788057588255_1_alg».proof.Proof.Gen.ReferenceIdeal
import proofs.«122028_j56788057588255_1_alg».proof.Proof.Gen.Pre_finite_inputs
import proofs.«122028_j56788057588255_1_alg».proof.Proof.KRun
import proofs.«122028_j56788057588255_1_alg».proof.Proof.KValue
import proofs.«122028_j56788057588255_1_alg».proof.Proof.RefRun
import proofs.«122028_j56788057588255_1_alg».proof.Proof.RefValue
import proofs.«122028_j56788057588255_1_alg».proof.Proof.PreRange
import Idealize.ShloMosaic.Adequacy
import Idealize.ShloMosaic.Init

noncomputable section

namespace Cert.Proof

open Idealize.ShloMosaic Idealize.ShloMosaic.TcCoe Idealize.SL.Sem

/-- The kernel program as printed terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Where the precondition holds, both programs end with the scatter-add, at the index's first row, of the messages over
    the node table of the (equal) arguments. -/
theorem algebraic : Cert.algebraic_KernelIdeal_ReferenceIdeal := by
  intro m ρ m' ρ' hpre hagree
  have hr : ∀ c : Dev Cert.KernelIdeal.nD, Cert.Spec.InRange
      (m ((c.tc : Thread Cert.KernelIdeal.nD Cert.KernelIdeal.τ).loc Cert.KernelIdeal.main_arg1)) :=
    fun c => Cert.PreRange.inRange_of_fn _ _ _ _ _ _ _ (hpre c)
  refine ⟨fun c => Cert.KernelIdeal.KHost.outK (F := Ideal)
      (Cert.KernelIdeal.KHost.srcK (m ((c.tc : Thread Cert.KernelIdeal.nD Cert.KernelIdeal.τ).loc Cert.KernelIdeal.main_arg1)))
      (Cert.Spec.msg
        (Cert.Spec.table (m ((c.tc : Thread Cert.KernelIdeal.nD Cert.KernelIdeal.τ).loc Cert.KernelIdeal.main_arg0))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.KernelIdeal.KValue.out_eq m ρ c (hr c)), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1,
      (hagree c).2.2.2.2.2.2]
    unfold Cert.ReferenceIdeal.RefTerm.out
    rw [Cert.ReferenceIdeal.RefValue.msgT_eq _ _ _ _ _ _ _ (hr c)]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
